-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 33
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x4096, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x4096, .bf16⟩
  | .hbm, ⟨29, _⟩ => ⟨S4096, .f32⟩
  | .hbm, ⟨30, _⟩ => ⟨S1x4096, .f32⟩
  | .hbm, ⟨31, _⟩ => ⟨S8192x1024, .f32⟩
  | .hbm, ⟨32, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.FrameK.lean ====
/-
  The frame of the LSTM-cell program `Kernel`: every weakly fair execution of its entry point terminates, nothing
  faults, and the eleven argument arrays end as they were launched.

  The program first packs the four gate weight matrices (their upper halves, which multiply the input, side by side
  into one 1024 × 4096 array, and likewise their lower halves, which multiply the previous hidden state) and the four
  bias vectors into one row of 4096; then one launch over 32 grid points handles 256 batch rows per point. At a
  point the body reads the point's 256 × 1024 blocks of the input, of the previous hidden state and of the previous
  cell state, the two packed weight arrays whole and the bias row, and overwrites two 256 × 1024 output blocks, each
  by one store that covers it. So after the body an output block is a function of the six input blocks alone
  (`hOut`, `cOut`), the input blocks are untouched, and the launch's proof data is: every input window at its block
  of the array the launch found, every output window at that function of the input blocks.
-/
import proofs.«152514_j18159121727814_2_alg».proof.Proof.Gen.Kernel.Launch
import proofs.«152514_j18159121727814_2_alg».proof.Proof.Gen.Kernel.Skeleton
import proofs.«152514_j18159121727814_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the launch -/

/-- What core `c`'s buffers hold when the launch is reached: the launch memory after the twenty packing operations. -/
abbrev V (c : Dev nD) (b : Ref sig .tc) : Buf (Elt F) ((c : Thread nD τ).loc b) :=
  StableHlo.after hostOps0 (fun b => m (c, b)) b

/-- None of the packing operations allocates. -/
theorem hostOps0_fresh : (hostOps0 : List (HloOp τ sig (Elt F))).Forall fun op => op.fresh = ∅ := by
  simp only [List.Forall]; repeat' constructor

/-- The entry point is the packing operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 7: the launch finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 8: the launch finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 9: the launch finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 10: the launch finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## A window's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether it was fetched there or stayed from the point
    before (the block index has then not moved), for any proof data over the arrays `V` whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- A run that ends with every window's array at what the proof data computes and every other buffer as the launch found
    it leaves the eleven arguments as launched: the first three are staged through input windows, which are never
    written back; the other eight are read by the packing operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two output blocks -/

/-- The new cell state's block, from the six input blocks: the one store into it, as a piece. -/
def cOut (x0 x1 x2 : Vec F S256x1024 .f32) (x3 x4 : Vec F S1024x4096 .bf16) (x5 : Vec F S1x4096 .f32) : Vec F S256x1024 .f32 :=
  View.canon [⟨rRows, k0_pay1 (k0_pay3 (View.ld x0 rRows) (View.ld x1 rRows) (View.ld x3 rWeights) (View.ld x4 rWeights) (View.ld x5 rBias)) (k0_pay4 (View.ld x0 rRows) (View.ld x1 rRows) (View.ld x3 rWeights) (View.ld x4 rWeights) (View.ld x5 rBias)) (k0_pay5 (View.ld x0 rRows) (View.ld x1 rRows) (View.ld x3 rWeights) (View.ld x4 rWeights) (View.ld x5 rBias)) (View.ld x2 rRows)⟩]

/-- The new hidden state's block, from the six input blocks: the one store into it, as a piece. -/
def hOut (x0 x1 x2 : Vec F S256x1024 .f32) (x3 x4 : Vec F S1024x4096 .bf16) (x5 : Vec F S1x4096 .f32) : Vec F S256x1024 .f32 :=
  View.canon [⟨rRows, k0_pay2 (k0_pay3 (View.ld x0 rRows) (View.ld x1 rRows) (View.ld x3 rWeights) (View.ld x4 rWeights) (View.ld x5 rBias)) (k0_pay4 (View.ld x0 rRows) (View.ld x1 rRows) (View.ld x3 rWeights) (View.ld x4 rWeights) (View.ld x5 rBias)) (k0_pay5 (View.ld x0 rRows) (View.ld x1 rRows) (View.ld x3 rWeights) (View.ld x4 rWeights) (View.ld x5 rBias)) (k0_pay6 (View.ld x0 rRows) (View.ld x1 rRows) (View.ld x3 rWeights) (View.ld x4 rWeights) (View.ld x5 rBias)) (k0_pay7 (F := F)) (View.ld x2 rRows)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body, on whole buffers — the six inputs' at contents `x0 … x5`, the two outputs' at anything — runs to a state
    with the inputs' as they were and the outputs' at `hOut` and `cOut` of the inputs. (It also reads each output
    buffer once before overwriting it; what it reads there is used by nothing.) -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hOut x0 x1 x2 x3 x4 x5) ∗ owns (c : Thread nD τ) arg8 fullShare (cOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_rows _)
  iexists _; isplitr
  swap; · iexact H7
  ipureintro
  try dsimp only
  exact View.read_writes_eq_canon _ _ _ (cover_rows _)

/-! ## The launch's proof data -/

/-- On core `c`: the arrays as the launch finds them; after the body at point `t` each input window at its block and the
    two output windows at `hOut` and `cOut` of the six input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry point terminates; at the end every window's array is what the proof data
    computes from the blocks written back, and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its arguments are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.FrameKI.lean ====
/-
  The frame of the LSTM-cell program `KernelIdeal`: every weakly fair execution of its entry point terminates, nothing
  faults, and the eleven argument arrays end as they were launched.

  The program first packs the four gate weight matrices (their upper halves, which multiply the input, side by side
  into one 1024 × 4096 array, and likewise their lower halves, which multiply the previous hidden state) and the four
  bias vectors into one row of 4096; then one launch over 32 grid points handles 256 batch rows per point. At a
  point the body reads the point's 256 × 1024 blocks of the input, of the previous hidden state and of the previous
  cell state, the two packed weight arrays whole and the bias row, and overwrites two 256 × 1024 output blocks, each
  by one store that covers it. So after the body an output block is a function of the six input blocks alone
  (`hOut`, `cOut`), the input blocks are untouched, and the launch's proof data is: every input window at its block
  of the array the launch found, every output window at that function of the input blocks.
-/
import proofs.«152514_j18159121727814_2_alg».proof.Proof.Gen.KernelIdeal.Launch
import proofs.«152514_j18159121727814_2_alg».proof.Proof.Gen.KernelIdeal.Skeleton
import proofs.«152514_j18159121727814_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the launch -/

/-- What core `c`'s buffers hold when the launch is reached: the launch memory after the twenty packing operations. -/
abbrev V (c : Dev nD) (b : Ref sig .tc) : Buf (Elt F) ((c : Thread nD τ).loc b) :=
  StableHlo.after hostOps0 (fun b => m (c, b)) b

/-- None of the packing operations allocates. -/
theorem hostOps0_fresh : (hostOps0 : List (HloOp τ sig (Elt F))).Forall fun op => op.fresh = ∅ := by
  simp only [List.Forall]; repeat' constructor

/-- The entry point is the packing operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 7: the launch finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 8: the launch finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 9: the launch finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 10: the launch finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## A window's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, whether it was fetched there or stayed from the point
    before (the block index has then not moved), for any proof data over the arrays `V` whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- A run that ends with every window's array at what the proof data computes and every other buffer as the launch found
    it leaves the eleven arguments as launched: the first three are staged through input windows, which are never
    written back; the other eight are read by the packing operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each buffer whole -/

abbrev rRows : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two output blocks -/

/-- The new cell state's block, from the six input blocks: the one store into it, as a piece. -/
def cOut (x0 x1 x2 : Vec F S256x1024 .f32) (x3 x4 : Vec F S1024x4096 .bf16) (x5 : Vec F S1x4096 .f32) : Vec F S256x1024 .f32 :=
  View.canon [⟨rRows, k0_pay1 (k0_pay3 (View.ld x0 rRows) (View.ld x1 rRows) (View.ld x3 rWeights) (View.ld x4 rWeights) (View.ld x5 rBias)) (k0_pay4 (View.ld x0 rRows) (View.ld x1 rRows) (View.ld x3 rWeights) (View.ld x4 rWeights) (View.ld x5 rBias)) (k0_pay5 (View.ld x0 rRows) (View.ld x1 rRows) (View.ld x3 rWeights) (View.ld x4 rWeights) (View.ld x5 rBias)) (View.ld x2 rRows)⟩]

/-- The new hidden state's block, from the six input blocks: the one store into it, as a piece. -/
def hOut (x0 x1 x2 : Vec F S256x1024 .f32) (x3 x4 : Vec F S1024x4096 .bf16) (x5 : Vec F S1x4096 .f32) : Vec F S256x1024 .f32 :=
  View.canon [⟨rRows, k0_pay2 (k0_pay3 (View.ld x0 rRows) (View.ld x1 rRows) (View.ld x3 rWeights) (View.ld x4 rWeights) (View.ld x5 rBias)) (k0_pay4 (View.ld x0 rRows) (View.ld x1 rRows) (View.ld x3 rWeights) (View.ld x4 rWeights) (View.ld x5 rBias)) (k0_pay5 (View.ld x0 rRows) (View.ld x1 rRows) (View.ld x3 rWeights) (View.ld x4 rWeights) (View.ld x5 rBias)) (k0_pay6 (View.ld x0 rRows) (View.ld x1 rRows) (View.ld x3 rWeights) (View.ld x4 rWeights) (View.ld x5 rBias)) (k0_pay7 (F := F)) (View.ld x2 rRows)⟩]

/-- One store of the whole block covers it. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body, on whole buffers — the six inputs' at contents `x0 … x5`, the two outputs' at anything — runs to a state
    with the inputs' as they were and the outputs' at `hOut` and `cOut` of the inputs. (It also reads each output
    buffer once before overwriting it; what it reads there is used by nothing.) -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hOut x0 x1 x2 x3 x4 x5) ∗ owns (c : Thread nD τ) arg8 fullShare (cOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_rows _)
  iexists _; isplitr
  swap; · iexact H7
  ipureintro
  try dsimp only
  exact View.read_writes_eq_canon _ _ _ (cover_rows _)

/-! ## The launch's proof data -/

/-- On core `c`: the arrays as the launch finds them; after the body at point `t` each input window at its block and the
    two output windows at `hOut` and `cOut` of the six input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry point terminates; at the end every window's array is what the proof data
    computes from the blocks written back, and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its arguments are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.LibCat4.lean ====
/-
  Four equal pieces joined, read at an entry of each piece, for any sizes and any element type.

  * Four n × w blocks set side by side along the columns: the entry in row k and column g·w + q of the joined array is
    block g's entry (k, q), for g = 0, 1, 2, 3.
  * Four length-w vectors joined end to end: entry g·w + q of the joined vector is vector g's entry q.
-/
import Idealize.ShloMosaic.Lib.Pipeline.Value
import Idealize.ShloMosaic.Lib.ValueIdx

namespace Cert.LibCat4

open Idealize.ShloMosaic Idealize.ShloMosaic.ValueIdx

variable {α : Type}

/-- Column q of four column blocks joined is column q of block 0. -/
theorem cols4_0 {n w W : ℕ} (y0 y1 y2 y3 : (⟨2, ![n, w]⟩ : Shape).Idx → α)
    (h : Shape.Concatenates [(⟨2, ![n, w]⟩ : Shape), (⟨2, ![n, w]⟩ : Shape), (⟨2, ![n, w]⟩ : Shape), (⟨2, ![n, w]⟩ : Shape)] (⟨2, ![n, W]⟩ : Shape) (1 : Fin 2))
    (k : Fin n) (q : Fin w) (q' : Fin W) (hq : q'.val = 0 + q.val) :
    concatenate (⟨2, ![n, W]⟩ : Shape) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') = y0 (ix2 k q) :=
  concatenate_apply_piece (t := (⟨2, ![n, W]⟩ : Shape)) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') 0 (by simp) (⟨2, ![n, w]⟩ : Shape) y0 rfl rfl (0) (by simp <;> omega) (ix2 k q)
    (fun b hb => match b, hb with
      | ⟨0, _⟩, _ => rfl
      | ⟨1, _⟩, hb => absurd rfl hb)
    (by show (0) + q.val = q'.val; omega)

/-- Column w + q of four column blocks joined is column q of block 1. -/
theorem cols4_1 {n w W : ℕ} (y0 y1 y2 y3 : (⟨2, ![n, w]⟩ : Shape).Idx → α)
    (h : Shape.Concatenates [(⟨2, ![n, w]⟩ : Shape), (⟨2, ![n, w]⟩ : Shape), (⟨2, ![n, w]⟩ : Shape), (⟨2, ![n, w]⟩ : Shape)] (⟨2, ![n, W]⟩ : Shape) (1 : Fin 2))
    (k : Fin n) (q : Fin w) (q' : Fin W) (hq : q'.val = w + q.val) :
    concatenate (⟨2, ![n, W]⟩ : Shape) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') = y1 (ix2 k q) :=
  concatenate_apply_piece (t := (⟨2, ![n, W]⟩ : Shape)) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') 1 (by simp) (⟨2, ![n, w]⟩ : Shape) y1 rfl rfl (w) (by simp <;> omega) (ix2 k q)
    (fun b hb => match b, hb with
      | ⟨0, _⟩, _ => rfl
      | ⟨1, _⟩, hb => absurd rfl hb)
    (by show (w) + q.val = q'.val; omega)

/-- Column w + w + q of four column blocks joined is column q of block 2. -/
theorem cols4_2 {n w W : ℕ} (y0 y1 y2 y3 : (⟨2, ![n, w]⟩ : Shape).Idx → α)
    (h : Shape.Concatenates [(⟨2, ![n, w]⟩ : Shape), (⟨2, ![n, w]⟩ : Shape), (⟨2, ![n, w]⟩ : Shape), (⟨2, ![n, w]⟩ : Shape)] (⟨2, ![n, W]⟩ : Shape) (1 : Fin 2))
    (k : Fin n) (q : Fin w) (q' : Fin W) (hq : q'.val = w + w + q.val) :
    concatenate (⟨2, ![n, W]⟩ : Shape) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') = y2 (ix2 k q) :=
  concatenate_apply_piece (t := (⟨2, ![n, W]⟩ : Shape)) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') 2 (by simp) (⟨2, ![n, w]⟩ : Shape) y2 rfl rfl (w + w) (by simp <;> omega) (ix2 k q)
    (fun b hb => match b, hb with
      | ⟨0, _⟩, _ => rfl
      | ⟨1, _⟩, hb => absurd rfl hb)
    (by show (w + w) + q.val = q'.val; omega)

/-- Column w + w + w + q of four column blocks joined is column q of block 3. -/
theorem cols4_3 {n w W : ℕ} (y0 y1 y2 y3 : (⟨2, ![n, w]⟩ : Shape).Idx → α)
    (h : Shape.Concatenates [(⟨2, ![n, w]⟩ : Shape), (⟨2, ![n, w]⟩ : Shape), (⟨2, ![n, w]⟩ : Shape), (⟨2, ![n, w]⟩ : Shape)] (⟨2, ![n, W]⟩ : Shape) (1 : Fin 2))
    (k : Fin n) (q : Fin w) (q' : Fin W) (hq : q'.val = w + w + w + q.val) :
    concatenate (⟨2, ![n, W]⟩ : Shape) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') = y3 (ix2 k q) :=
  concatenate_apply_piece (t := (⟨2, ![n, W]⟩ : Shape)) (1 : Fin 2) [⟨(⟨2, ![n, w]⟩ : Shape), y0⟩, ⟨(⟨2, ![n, w]⟩ : Shape), y1⟩, ⟨(⟨2, ![n, w]⟩ : Shape), y2⟩, ⟨(⟨2, ![n, w]⟩ : Shape), y3⟩] h (ix2 k q') 3 (by simp) (⟨2, ![n, w]⟩ : Shape) y3 rfl rfl (w + w + w) (by simp <;> omega) (ix2 k q)
    (fun b hb => match b, hb with
      | ⟨0, _⟩, _ => rfl
      | ⟨1, _⟩, hb => absurd rfl hb)
    (by show (w + w + w) + q.val = q'.val; omega)

/-- Entry q of four vectors joined end to end is entry q of vector 0. -/
theorem vec4_0 {w W : ℕ} (y0 y1 y2 y3 : (⟨1, ![w]⟩ : Shape).Idx → α)
    (h : Shape.Concatenates [(⟨1, ![w]⟩ : Shape), (⟨1, ![w]⟩ : Shape), (⟨1, ![w]⟩ : Shape), (⟨1, ![w]⟩ : Shape)] (⟨1, ![W]⟩ : Shape) (0 : Fin 1))
    (q : Fin w) (q' : Fin W) (hq : q'.val = 0 + q.val) :
    concatenate (⟨1, ![W]⟩ : Shape) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') = y0 (ix1 q) :=
  concatenate_apply_piece (t := (⟨1, ![W]⟩ : Shape)) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') 0 (by simp) (⟨1, ![w]⟩ : Shape) y0 rfl rfl (0) (by simp <;> omega) (ix1 q)
    (fun b hb => match b, hb with
      | ⟨0, _⟩, hb => absurd rfl hb)
    (by show (0) + q.val = q'.val; omega)

/-- Entry w + q of four vectors joined end to end is entry q of vector 1. -/
theorem vec4_1 {w W : ℕ} (y0 y1 y2 y3 : (⟨1, ![w]⟩ : Shape).Idx → α)
    (h : Shape.Concatenates [(⟨1, ![w]⟩ : Shape), (⟨1, ![w]⟩ : Shape), (⟨1, ![w]⟩ : Shape), (⟨1, ![w]⟩ : Shape)] (⟨1, ![W]⟩ : Shape) (0 : Fin 1))
    (q : Fin w) (q' : Fin W) (hq : q'.val = w + q.val) :
    concatenate (⟨1, ![W]⟩ : Shape) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') = y1 (ix1 q) :=
  concatenate_apply_piece (t := (⟨1, ![W]⟩ : Shape)) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') 1 (by simp) (⟨1, ![w]⟩ : Shape) y1 rfl rfl (w) (by simp <;> omega) (ix1 q)
    (fun b hb => match b, hb with
      | ⟨0, _⟩, hb => absurd rfl hb)
    (by show (w) + q.val = q'.val; omega)

/-- Entry w + w + q of four vectors joined end to end is entry q of vector 2. -/
theorem vec4_2 {w W : ℕ} (y0 y1 y2 y3 : (⟨1, ![w]⟩ : Shape).Idx → α)
    (h : Shape.Concatenates [(⟨1, ![w]⟩ : Shape), (⟨1, ![w]⟩ : Shape), (⟨1, ![w]⟩ : Shape), (⟨1, ![w]⟩ : Shape)] (⟨1, ![W]⟩ : Shape) (0 : Fin 1))
    (q : Fin w) (q' : Fin W) (hq : q'.val = w + w + q.val) :
    concatenate (⟨1, ![W]⟩ : Shape) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') = y2 (ix1 q) :=
  concatenate_apply_piece (t := (⟨1, ![W]⟩ : Shape)) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') 2 (by simp) (⟨1, ![w]⟩ : Shape) y2 rfl rfl (w + w) (by simp <;> omega) (ix1 q)
    (fun b hb => match b, hb with
      | ⟨0, _⟩, hb => absurd rfl hb)
    (by show (w + w) + q.val = q'.val; omega)

/-- Entry w + w + w + q of four vectors joined end to end is entry q of vector 3. -/
theorem vec4_3 {w W : ℕ} (y0 y1 y2 y3 : (⟨1, ![w]⟩ : Shape).Idx → α)
    (h : Shape.Concatenates [(⟨1, ![w]⟩ : Shape), (⟨1, ![w]⟩ : Shape), (⟨1, ![w]⟩ : Shape), (⟨1, ![w]⟩ : Shape)] (⟨1, ![W]⟩ : Shape) (0 : Fin 1))
    (q : Fin w) (q' : Fin W) (hq : q'.val = w + w + w + q.val) :
    concatenate (⟨1, ![W]⟩ : Shape) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') = y3 (ix1 q) :=
  concatenate_apply_piece (t := (⟨1, ![W]⟩ : Shape)) (0 : Fin 1) [⟨(⟨1, ![w]⟩ : Shape), y0⟩, ⟨(⟨1, ![w]⟩ : Shape), y1⟩, ⟨(⟨1, ![w]⟩ : Shape), y2⟩, ⟨(⟨1, ![w]⟩ : Shape), y3⟩] h (ix1 q') 3 (by simp) (⟨1, ![w]⟩ : Shape) y3 rfl rfl (w + w + w) (by simp <;> omega) (ix1 q)
    (fun b hb => match b, hb with
      | ⟨0, _⟩, hb => absurd rfl hb)
    (by show (w + w + w) + q.val = q'.val; omega)

end Cert.LibCat4
-- ==== Proof.KIHost.lean ====
/-
  The three arrays the packing operations hand to the launch, read at an entry, in terms of the arguments.

  The packed upper halves: entry (k, g·1024 + q) is gate g's weight (k, q); the packed lower halves: entry
  (k, g·1024 + q) is gate g's weight (1024 + k, q); the bias row: entry (0, g·1024 + q) is gate g's bias q — the gates in
  the order forget, input, output, candidate. (The change of float format on the way is the identity on extended reals.)
-/
import proofs.«152514_j18159121727814_2_alg».proof.Proof.FrameKI
import proofs.«152514_j18159121727814_2_alg».proof.Proof.LibCat2
import proofs.«152514_j18159121727814_2_alg».proof.Proof.LibCat4
import Idealize.ShloMosaic.Lib.ValueLayout
import Idealize.ShloMosaic.Lib.StableHlo.Run

noncomputable section

namespace Cert.KernelIdeal.HostRead

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ)

/-- The upper halves of the four weight matrices, side by side. -/
def upperPacked (c : Dev nD) : S1024x4096.Idx → EReal :=
  concatenate S1024x4096 1 [⟨S1024x1024, truncf (F := Ideal) .bf16 (extractStridedSlice S1024x1024 ![0, 0] ((m ((c : Thread nD τ).loc main_arg3)) : S2048x1024.Idx → EReal) slices_S2048x1024_S1024x1024_0_0) bitsLt_bf16_f32⟩,
      ⟨S1024x1024, truncf (F := Ideal) .bf16 (extractStridedSlice S1024x1024 ![0, 0] ((m ((c : Thread nD τ).loc main_arg5)) : S2048x1024.Idx → EReal) slices_S2048x1024_S1024x1024_0_0) bitsLt_bf16_f32⟩,
      ⟨S1024x1024, truncf (F := Ideal) .bf16 (extractStridedSlice S1024x1024 ![0, 0] ((m ((c : Thread nD τ).loc main_arg9)) : S2048x1024.Idx → EReal) slices_S2048x1024_S1024x1024_0_0) bitsLt_bf16_f32⟩,
      ⟨S1024x1024, truncf (F := Ideal) .bf16 (extractStridedSlice S1024x1024 ![0, 0] ((m ((c : Thread nD τ).loc main_arg7)) : S2048x1024.Idx → EReal) slices_S2048x1024_S1024x1024_0_0) bitsLt_bf16_f32⟩] concatenates_S1024x1024_S1024x1024_S1024x1024_S1024x1024_S1024x4096_d1

/-- The lower halves of the four weight matrices, side by side. -/
def lowerPacked (c : Dev nD) : S1024x4096.Idx → EReal :=
  concatenate S1024x4096 1 [⟨S1024x1024, truncf (F := Ideal) .bf16 (extractStridedSlice S1024x1024 ![1024, 0] ((m ((c : Thread nD τ).loc main_arg3)) : S2048x1024.Idx → EReal) slices_S2048x1024_S1024x1024_1024_0) bitsLt_bf16_f32⟩,
      ⟨S1024x1024, truncf (F := Ideal) .bf16 (extractStridedSlice S1024x1024 ![1024, 0] ((m ((c : Thread nD τ).loc main_arg5)) : S2048x1024.Idx → EReal) slices_S2048x1024_S1024x1024_1024_0) bitsLt_bf16_f32⟩,
      ⟨S1024x1024, truncf (F := Ideal) .bf16 (extractStridedSlice S1024x1024 ![1024, 0] ((m ((c : Thread nD τ).loc main_arg9)) : S2048x1024.Idx → EReal) slices_S2048x1024_S1024x1024_1024_0) bitsLt_bf16_f32⟩,
      ⟨S1024x1024, truncf (F := Ideal) .bf16 (extractStridedSlice S1024x1024 ![1024, 0] ((m ((c : Thread nD τ).loc main_arg7)) : S2048x1024.Idx → EReal) slices_S2048x1024_S1024x1024_1024_0) bitsLt_bf16_f32⟩] concatenates_S1024x1024_S1024x1024_S1024x1024_S1024x1024_S1024x4096_d1

/-- The four biases end to end, as one row. -/
def biasRow (c : Dev nD) : S1x4096.Idx → EReal :=
  shapeCast S1x4096 (concatenate S4096 0 [⟨S1024, ((m ((c : Thread nD τ).loc main_arg4)) : S1024.Idx → EReal)⟩, ⟨S1024, ((m ((c : Thread nD τ).loc main_arg6)) : S1024.Idx → EReal)⟩, ⟨S1024, ((m ((c : Thread nD τ).loc main_arg10)) : S1024.Idx → EReal)⟩, ⟨S1024, ((m ((c : Thread nD τ).loc main_arg8)) : S1024.Idx → EReal)⟩] concatenates_S1024_S1024_S1024_S1024_S4096_d0) shapeCasts_S4096_S1x4096

/-- The launch finds the packed upper halves in the fourth window's array. -/
theorem V_upper (c : Dev nD) : @Eq (S1024x4096.Idx → EReal) (V m c main_v8) (upperPacked m c) := by
  unfold upperPacked; dsimp only [V, hostOps0]; after_results_simp <;> rfl

/-- The launch finds the packed lower halves in the fifth window's array. -/
theorem V_lower (c : Dev nD) : @Eq (S1024x4096.Idx → EReal) (V m c main_v17) (lowerPacked m c) := by
  unfold lowerPacked; dsimp only [V, hostOps0]; after_results_simp <;> rfl

/-- The launch finds the bias row in the sixth window's array. -/
theorem V_bias (c : Dev nD) : @Eq (S1x4096.Idx → EReal) (V m c main_v19) (biasRow m c) := by
  unfold biasRow; dsimp only [V, hostOps0]; after_results_simp <;> rfl

/-- Gate f's columns of the packed upper halves. -/
theorem upper_f (c : Dev nD) (k q : Fin 1024) (q' : Fin 4096) (hq : q'.val = 0 + q.val) :
    (V m c main_v8 : S1024x4096.Idx → EReal) (ix2 k q') = ((m ((c : Thread nD τ).loc main_arg3)) : S2048x1024.Idx → EReal) (ix2 (⟨k.val, by omega⟩ : Fin 2048) q) := by
  rw [V_upper]; unfold upperPacked
  refine (Cert.LibCat4.cols4_0 (n := 1024) (w := 1024) (W := 4096) _ _ _ _ concatenates_S1024x1024_S1024x1024_S1024x1024_S1024x1024_S1024x4096_d1 k q q' hq).trans ?_
  refine (Cert.LibCat2.slice_apply 0 0 ((m ((c : Thread nD τ).loc main_arg3)) : S2048x1024.Idx → EReal) slices_S2048x1024_S1024x1024_0_0 k q (by omega) (by omega)).trans ?_
  exact congrArg _ (congrArg₂ ix2 (Fin.ext (Nat.zero_add _)) (Fin.ext (Nat.zero_add _)))

/-- Gate f's columns of the packed lower halves. -/
theorem lower_f (c : Dev nD) (k q : Fin 1024) (q' : Fin 4096) (hq : q'.val = 0 + q.val) :
    (V m c main_v17 : S1024x4096.Idx → EReal) (ix2 k q') = ((m ((c : Thread nD τ).loc main_arg3)) : S2048x1024.Idx → EReal) (ix2 (⟨1024 + k.val, by omega⟩ : Fin 2048) q) := by
  rw [V_lower]; unfold lowerPacked
  refine (Cert.LibCat4.cols4_0 (n := 1024) (w := 1024) (W := 4096) _ _ _ _ concatenates_S1024x1024_S1024x1024_S1024x1024_S1024x1024_S1024x4096_d1 k q q' hq).trans ?_
  refine (Cert.LibCat2.slice_apply 1024 0 ((m ((c : Thread nD τ).loc main_arg3)) : S2048x1024.Idx → EReal) slices_S2048x1024_S1024x1024_1024_0 k q (by omega) (by omega)).trans ?_
  exact congrArg _ (congrArg₂ ix2 rfl (Fin.ext (Nat.zero_add _)))

/-- Gate f's stretch of the bias row. -/
theorem bias_f (c : Dev nD) (u : Fin 1) (q : Fin 1024) (q' : Fin 4096) (hq : q'.val = 0 + q.val) :
    (V m c main_v19 : S1x4096.Idx → EReal) (ix2 u q') = ((m ((c : Thread nD τ).loc main_arg4)) : S1024.Idx → EReal) (ix1 q) := by
  rw [V_bias]; unfold biasRow
  refine (shapeCast_a_1a_apply _ shapeCasts_S4096_S1x4096 u q').trans ?_
  exact Cert.LibCat4.vec4_0 (w := 1024) (W := 4096) _ _ _ _ concatenates_S1024_S1024_S1024_S1024_S4096_d0 q q' hq

/-- Gate i's columns of the packed upper halves. -/
theorem upper_i (c : Dev nD) (k q : Fin 1024) (q' : Fin 4096) (hq : q'.val = 1024 + q.val) :
    (V m c main_v8 : S1024x4096.Idx → EReal) (ix2 k q') = ((m ((c : Thread nD τ).loc main_arg5)) : S2048x1024.Idx → EReal) (ix2 (⟨k.val, by omega⟩ : Fin 2048) q) := by
  rw [V_upper]; unfold upperPacked
  refine (Cert.LibCat4.cols4_1 (n := 1024) (w := 1024) (W := 4096) _ _ _ _ concatenates_S1024x1024_S1024x1024_S1024x1024_S1024x1024_S1024x4096_d1 k q q' hq).trans ?_
  refine (Cert.LibCat2.slice_apply 0 0 ((m ((c : Thread nD τ).loc main_arg5)) : S2048x1024.Idx → EReal) slices_S2048x1024_S1024x1024_0_0 k q (by omega) (by omega)).trans ?_
  exact congrArg _ (congrArg₂ ix2 (Fin.ext (Nat.zero_add _)) (Fin.ext (Nat.zero_add _)))

/-- Gate i's columns of the packed lower halves. -/
theorem lower_i (c : Dev nD) (k q : Fin 1024) (q' : Fin 4096) (hq : q'.val = 1024 + q.val) :
    (V m c main_v17 : S1024x4096.Idx → EReal) (ix2 k q') = ((m ((c : Thread nD τ).loc main_arg5)) : S2048x1024.Idx → EReal) (ix2 (⟨1024 + k.val, by omega⟩ : Fin 2048) q) := by
  rw [V_lower]; unfold lowerPacked
  refine (Cert.LibCat4.cols4_1 (n := 1024) (w := 1024) (W := 4096) _ _ _ _ concatenates_S1024x1024_S1024x1024_S1024x1024_S1024x1024_S1024x4096_d1 k q q' hq).trans ?_
  refine (Cert.LibCat2.slice_apply 1024 0 ((m ((c : Thread nD τ).loc main_arg5)) : S2048x1024.Idx → EReal) slices_S2048x1024_S1024x1024_1024_0 k q (by omega) (by omega)).trans ?_
  exact congrArg _ (congrArg₂ ix2 rfl (Fin.ext (Nat.zero_add _)))

/-- Gate i's stretch of the bias row. -/
theorem bias_i (c : Dev nD) (u : Fin 1) (q : Fin 1024) (q' : Fin 4096) (hq : q'.val = 1024 + q.val) :
    (V m c main_v19 : S1x4096.Idx → EReal) (ix2 u q') = ((m ((c : Thread nD τ).loc main_arg6)) : S1024.Idx → EReal) (ix1 q) := by
  rw [V_bias]; unfold biasRow
  refine (shapeCast_a_1a_apply _ shapeCasts_S4096_S1x4096 u q').trans ?_
  exact Cert.LibCat4.vec4_1 (w := 1024) (W := 4096) _ _ _ _ concatenates_S1024_S1024_S1024_S1024_S4096_d0 q q' hq

/-- Gate o's columns of the packed upper halves. -/
theorem upper_o (c : Dev nD) (k q : Fin 1024) (q' : Fin 4096) (hq : q'.val = 1024 + 1024 + q.val) :
    (V m c main_v8 : S1024x4096.Idx → EReal) (ix2 k q') = ((m ((c : Thread nD τ).loc main_arg9)) : S2048x1024.Idx → EReal) (ix2 (⟨k.val, by omega⟩ : Fin 2048) q) := by
  rw [V_upper]; unfold upperPacked
  refine (Cert.LibCat4.cols4_2 (n := 1024) (w := 1024) (W := 4096) _ _ _ _ concatenates_S1024x1024_S1024x1024_S1024x1024_S1024x1024_S1024x4096_d1 k q q' hq).trans ?_
  refine (Cert.LibCat2.slice_apply 0 0 ((m ((c : Thread nD τ).loc main_arg9)) : S2048x1024.Idx → EReal) slices_S2048x1024_S1024x1024_0_0 k q (by omega) (by omega)).trans ?_
  exact congrArg _ (congrArg₂ ix2 (Fin.ext (Nat.zero_add _)) (Fin.ext (Nat.zero_add _)))

/-- Gate o's columns of the packed lower halves. -/
theorem lower_o (c : Dev nD) (k q : Fin 1024) (q' : Fin 4096) (hq : q'.val = 1024 + 1024 + q.val) :
    (V m c main_v17 : S1024x4096.Idx → EReal) (ix2 k q') = ((m ((c : Thread nD τ).loc main_arg9)) : S2048x1024.Idx → EReal) (ix2 (⟨1024 + k.val, by omega⟩ : Fin 2048) q) := by
  rw [V_lower]; unfold lowerPacked
  refine (Cert.LibCat4.cols4_2 (n := 1024) (w := 1024) (W := 4096) _ _ _ _ concatenates_S1024x1024_S1024x1024_S1024x1024_S1024x1024_S1024x4096_d1 k q q' hq).trans ?_
  refine (Cert.LibCat2.slice_apply 1024 0 ((m ((c : Thread nD τ).loc main_arg9)) : S2048x1024.Idx → EReal) slices_S2048x1024_S1024x1024_1024_0 k q (by omega) (by omega)).trans ?_
  exact congrArg _ (congrArg₂ ix2 rfl (Fin.ext (Nat.zero_add _)))

/-- Gate o's stretch of the bias row. -/
theorem bias_o (c : Dev nD) (u : Fin 1) (q : Fin 1024) (q' : Fin 4096) (hq : q'.val = 1024 + 1024 + q.val) :
    (V m c main_v19 : S1x4096.Idx → EReal) (ix2 u q') = ((m ((c : Thread nD τ).loc main_arg10)) : S1024.Idx → EReal) (ix1 q) := by
  rw [V_bias]; unfold biasRow
  refine (shapeCast_a_1a_apply _ shapeCasts_S4096_S1x4096 u q').trans ?_
  exact Cert.LibCat4.vec4_2 (w := 1024) (W := 4096) _ _ _ _ concatenates_S1024_S1024_S1024_S1024_S4096_d0 q q' hq

/-- Gate C's columns of the packed upper halves. -/
theorem upper_C (c : Dev nD) (k q : Fin 1024) (q' : Fin 4096) (hq : q'.val = 1024 + 1024 + 1024 + q.val) :
    (V m c main_v8 : S1024x4096.Idx → EReal) (ix2 k q') = ((m ((c : Thread nD τ).loc main_arg7)) : S2048x1024.Idx → EReal) (ix2 (⟨k.val, by omega⟩ : Fin 2048) q) := by
  rw [V_upper]; unfold upperPacked
  refine (Cert.LibCat4.cols4_3 (n := 1024) (w := 1024) (W := 4096) _ _ _ _ concatenates_S1024x1024_S1024x1024_S1024x1024_S1024x1024_S1024x4096_d1 k q q' hq).trans ?_
  refine (Cert.LibCat2.slice_apply 0 0 ((m ((c : Thread nD τ).loc main_arg7)) : S2048x1024.Idx → EReal) slices_S2048x1024_S1024x1024_0_0 k q (by omega) (by omega)).trans ?_
  exact congrArg _ (congrArg₂ ix2 (Fin.ext (Nat.zero_add _)) (Fin.ext (Nat.zero_add _)))

/-- Gate C's columns of the packed lower halves. -/
theorem lower_C (c : Dev nD) (k q : Fin 1024) (q' : Fin 4096) (hq : q'.val = 1024 + 1024 + 1024 + q.val) :
    (V m c main_v17 : S1024x4096.Idx → EReal) (ix2 k q') = ((m ((c : Thread nD τ).loc main_arg7)) : S2048x1024.Idx → EReal) (ix2 (⟨1024 + k.val, by omega⟩ : Fin 2048) q) := by
  rw [V_lower]; unfold lowerPacked
  refine (Cert.LibCat4.cols4_3 (n := 1024) (w := 1024) (W := 4096) _ _ _ _ concatenates_S1024x1024_S1024x1024_S1024x1024_S1024x1024_S1024x4096_d1 k q q' hq).trans ?_
  refine (Cert.LibCat2.slice_apply 1024 0 ((m ((c : Thread nD τ).loc main_arg7)) : S2048x1024.Idx → EReal) slices_S2048x1024_S1024x1024_1024_0 k q (by omega) (by omega)).trans ?_
  exact congrArg _ (congrArg₂ ix2 rfl (Fin.ext (Nat.zero_add _)))

/-- Gate C's stretch of the bias row. -/
theorem bias_C (c : Dev nD) (u : Fin 1) (q : Fin 1024) (q' : Fin 4096) (hq : q'.val = 1024 + 1024 + 1024 + q.val) :
    (V m c main_v19 : S1x4096.Idx → EReal) (ix2 u q') = ((m ((c : Thread nD τ).loc main_arg8)) : S1024.Idx → EReal) (ix1 q) := by
  rw [V_bias]; unfold biasRow
  refine (shapeCast_a_1a_apply _ shapeCasts_S4096_S1x4096 u q').trans ?_
  exact Cert.LibCat4.vec4_3 (w := 1024) (W := 4096) _ _ _ _ concatenates_S1024_S1024_S1024_S1024_S4096_d0 q q' hq

end Cert.KernelIdeal.HostRead

end
-- ==== Proof.Spec.lean ====
/-
  The LSTM cell as one function of its eleven arguments, and the two facts that join the kernel's arrangement of it
  to the reference's.

  For batch row p and hidden unit q, a gate with weight matrix W (2048 × 1024: the upper 1024 rows multiply the input
  x, the lower 1024 rows the previous hidden state h) and bias b has pre-activation
      pre W b (p, q) = Σ_{k<1024} x(p,k)·W(k,q) + Σ_{k<1024} h(p,k)·W(1024+k,q) + b(q).
  With σ the logistic function, the new cell state is  c' = σ(pre_f)·c + σ(pre_i)·tanh(pre_C)  and the new hidden state
  is  h' = σ(pre_o)·tanh(c').

  * The logistic function is written here as  ½·(1 + tanh(½·g)); on the extended reals this equals  1 / (1 + exp(−g))
    at every g, the infinities included (both sides are 1 at +∞ and 0 at −∞), so no finiteness is needed.
  * A sum over 2048 positions is the sum over the first 1024 plus the sum over the last 1024; sums of extended reals
    commute and associate, so again no finiteness is needed.
-/
import Idealize.ShloMosaic.PureOps.Ideal.Laws
import Idealize.ShloMosaic.Lib.ValueIdx
import Mathlib.Analysis.SpecialFunctions.Trigonometric.DerivHyp

noncomputable section

namespace Cert.LstmCell

open Idealize.ShloMosaic Idealize.ShloMosaic.ValueIdx

abbrev SRows : Shape := ⟨2, ![8192, 1024]⟩
abbrev SWt : Shape := ⟨2, ![2048, 1024]⟩
abbrev SBias : Shape := ⟨1, ![1024]⟩

/-- The float patterns of one half and of one, as extended reals. -/
abbrev half : EReal := Ideal.ofBits .f32 0x3F000000#32
abbrev one : EReal := Ideal.ofBits .f32 0x3F800000#32

theorem one_eq : one = 1 := by
  unfold one; simp [Ideal.ofBits, Ideal.ieee, -EReal.coe_mul]; norm_num

theorem half_eq : half = ((1 / 2 : ℝ) : EReal) := by
  unfold half; simp [Ideal.ofBits, Ideal.ieee, -EReal.coe_mul]; norm_num

/-- The logistic function in the form  ½·(1 + tanh(½·g)). -/
def sg (g : EReal) : EReal := half * (one + Ideal.tanh (half * g))

/-- On the reals,  1 / (1 + e^(−r)) = ½·(1 + tanh(r/2)). -/
theorem real_logistic (r : ℝ) : (1 + Real.exp (-r))⁻¹ = 1 / 2 * (1 + Real.tanh (1 / 2 * r)) := by
  have ha : 0 < Real.exp (1 / 2 * r) := Real.exp_pos _
  have hb : Real.exp (-(1 / 2 * r)) = (Real.exp (1 / 2 * r))⁻¹ := Real.exp_neg _
  have hc : Real.exp (-r) = (Real.exp (1 / 2 * r))⁻¹ * (Real.exp (1 / 2 * r))⁻¹ := by
    rw [← hb, ← Real.exp_add]; congr 1; ring
  rw [Real.tanh_eq_sinh_div_cosh, Real.sinh_eq, Real.cosh_eq, hb, hc]
  generalize Real.exp (1 / 2 * r) = a at ha
  have ha0 : a ≠ 0 := ne_of_gt ha
  field_simp
  ring

/-- On the extended reals,  1 / (1 + exp(−g))  is  ½·(1 + tanh(½·g))  at every g. -/
theorem logistic_eq (g : EReal) : Ideal.div one (one + Ideal.exp (-g)) = sg g := by
  unfold sg
  rw [one_eq, half_eq]
  induction g using EReal.rec with
  | bot =>
    have h1 : ((1 / 2 : ℝ) : EReal) * ⊥ = ⊥ := EReal.coe_mul_bot_of_pos (by norm_num)
    rw [EReal.neg_bot, Ideal.exp_top, h1, Ideal.tanh_bot]
    have h2 : (1 : EReal) + ⊤ = ⊤ := EReal.add_top_of_ne_bot (by decide)
    have h3 : (1 : EReal) + -1 = 0 := by
      rw [← EReal.coe_one, ← EReal.coe_neg, ← EReal.coe_add]; norm_num
    rw [h2, h3, mul_zero]
    unfold Ideal.div
    rw [if_neg (by decide), EReal.inv_top, mul_zero]
  | top =>
    have h1 : ((1 / 2 : ℝ) : EReal) * ⊤ = ⊤ := EReal.coe_mul_top_of_pos (by norm_num)
    rw [EReal.neg_top, Ideal.exp_bot, h1, Ideal.tanh_top, add_zero]
    have h3 : ((1 / 2 : ℝ) : EReal) * ((1 : EReal) + 1) = 1 := by
      rw [← EReal.coe_one, ← EReal.coe_add, ← EReal.coe_mul]; norm_num
    rw [h3]
    unfold Ideal.div
    rw [if_neg one_ne_zero, inv_one, mul_one]
  | coe r =>
    rw [← EReal.coe_neg, Ideal.exp_coe, ← EReal.coe_mul, Ideal.tanh_coe, ← EReal.coe_one, ← EReal.coe_add,
      ← EReal.coe_add, ← EReal.coe_mul]
    have hpos : 0 < 1 + Real.exp (-r) := by have := Real.exp_pos (-r); linarith
    unfold Ideal.div
    rw [if_neg (by exact_mod_cast ne_of_gt hpos), ← EReal.coe_inv, ← EReal.coe_mul, one_mul, real_logistic]

/-- A sum over 2048 positions is the sum over the first 1024 plus the sum over the last 1024. -/
theorem sum_split (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- A gate's pre-activation at batch row p and unit q. -/
def pre (x h : SRows.Idx → EReal) (W : SWt.Idx → EReal) (b : SBias.Idx → EReal) (p : Fin 8192) (q : Fin 1024) : EReal :=
  ((∑ k : Fin 1024, x (ix2 p k) * W (ix2 (⟨k.val, by omega⟩ : Fin 2048) q))
    + ∑ k : Fin 1024, h (ix2 p k) * W (ix2 (⟨1024 + k.val, by omega⟩ : Fin 2048) q)) + b (ix1 q)

/-- The new cell state at (p, q). -/
def cAt (x h c : SRows.Idx → EReal) (Wf : SWt.Idx → EReal) (bf : SBias.Idx → EReal) (Wi : SWt.Idx → EReal) (bi : SBias.Idx → EReal)
    (WC : SWt.Idx → EReal) (bC : SBias.Idx → EReal) (p : Fin 8192) (q : Fin 1024) : EReal :=
  sg (pre x h Wf bf p q) * c (ix2 p q) + sg (pre x h Wi bi p q) * Ideal.tanh (pre x h WC bC p q)

/-- The new hidden state at (p, q). -/
def hAt (x h c : SRows.Idx → EReal) (Wf : SWt.Idx → EReal) (bf : SBias.Idx → EReal) (Wi : SWt.Idx → EReal) (bi : SBias.Idx → EReal)
    (WC : SWt.Idx → EReal) (bC : SBias.Idx → EReal) (Wo : SWt.Idx → EReal) (bo : SBias.Idx → EReal) (p : Fin 8192) (q : Fin 1024) : EReal :=
  sg (pre x h Wo bo p q) * Ideal.tanh (cAt x h c Wf bf Wi bi WC bC p q)

/-- The new cell state as an array. -/
def cNew (x h c : SRows.Idx → EReal) (Wf : SWt.Idx → EReal) (bf : SBias.Idx → EReal) (Wi : SWt.Idx → EReal) (bi : SBias.Idx → EReal)
    (WC : SWt.Idx → EReal) (bC : SBias.Idx → EReal) : SRows.Idx → EReal :=
  fun j => cAt x h c Wf bf Wi bi WC bC (j 0) (j 1)

/-- The new hidden state as an array. -/
def hNew (x h c : SRows.Idx → EReal) (Wf : SWt.Idx → EReal) (bf : SBias.Idx → EReal) (Wi : SWt.Idx → EReal) (bi : SBias.Idx → EReal)
    (WC : SWt.Idx → EReal) (bC : SBias.Idx → EReal) (Wo : SWt.Idx → EReal) (bo : SBias.Idx → EReal) : SRows.Idx → EReal :=
  fun j => hAt x h c Wf bf Wi bi WC bC Wo bo (j 0) (j 1)

end Cert.LstmCell

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«152514_j18159121727814_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.KIBody.lean ====
/-
  The body's arithmetic at one row p and column q of a 256-row block, at the ideal values.

  From the block of x (v0), the block of h (v2), the packed upper and lower weight halves (v4, v7) and the bias row
  (v11) the body forms the 256 × 4096 array of pre-activations
      gatesAt (p, q') = Σ_{k<1024} v0(p,k)·v4(k,q') + Σ_{k<1024} v2(p,k)·v7(k,q') + v11(0,q')
  (two matrix-unit products into zero accumulators, then the bias row repeated along the rows), cuts it into four
  256 × 1024 column blocks at offsets 0, 1024, 2048, 3072, and applies ½·(1 + tanh(½·g)) to the first three and tanh to
  the fourth. With c the block of the previous cell state, the block stored as the new cell state is
  σ(g₀)·c + σ(g₁)·tanh(g₃) and the block stored as the new hidden state is σ(g₂)·tanh of that.
-/
import proofs.«152514_j18159121727814_2_alg».proof.Proof.FrameKI
import proofs.«152514_j18159121727814_2_alg».proof.Proof.Spec
import proofs.«152514_j18159121727814_2_alg».proof.Proof.LibMatmulSum
import proofs.«152514_j18159121727814_2_alg».proof.Proof.LibPlainLists
import proofs.«152514_j18159121727814_2_alg».proof.Proof.LibCat2
import Idealize.ShloMosaic.Lib.ValueLayout

noncomputable section

namespace Cert.KernelIdeal.BodyValue

open Cert.KernelIdeal Cert.KernelIdeal.Gen Idealize.ShloMosaic Idealize.ShloMosaic.ValueIdx Cert.LstmCell

/-- The body's matrix products are plain ones: left contracted on its columns, right on its rows. -/
theorem plain : Cert.LibMatmulSum.Plain dot_S256x1024_S1024x4096_S256x4096_1_0_0_1_n_n :=
  Cert.LibMatmulSum.Plain.of_lists _ rfl rfl rfl rfl rfl rfl

/-- The pre-activation the body forms at row p and packed column q'. -/
def gatesAt (v0 v2 : FVec Ideal S256x1024 .f32) (v4 v7 : FVec Ideal S1024x4096 .bf16) (v11 : FVec Ideal S1x4096 .f32) (p : Fin 256) (q' : Fin 4096) : EReal :=
  ((∑ k : Fin 1024, v0 (ix2 p k) * v4 (ix2 k q')) + ∑ k : Fin 1024, v2 (ix2 p k) * v7 (ix2 k q')) + v11 (ix2 (0 : Fin 1) q')

theorem pay3_at (v0 v2 : FVec Ideal S256x1024 .f32) (v4 v7 : FVec Ideal S1024x4096 .bf16) (v11 : FVec Ideal S1x4096 .f32) (p : Fin 256) (q' : Fin 4096) :
    k0_pay3 (F := Ideal) v0 v2 v4 v7 v11 (ix2 p q') = gatesAt v0 v2 v4 v7 v11 p q' := by
  unfold k0_pay3 gatesAt
  show (FloatOps.matmul dot_S256x1024_S1024x4096_S256x4096_1_0_0_1_n_n none (truncf .bf16 v0 bitsLt_bf16_f32) (shapeCast S1024x4096 v4 shapeCasts_S1024x4096_S1024x4096) (constant S256x4096 .f32 0x00000000#32) (ix2 p q')
      + FloatOps.matmul dot_S256x1024_S1024x4096_S256x4096_1_0_0_1_n_n none (truncf .bf16 v2 bitsLt_bf16_f32) (shapeCast S1024x4096 v7 shapeCasts_S1024x4096_S1024x4096) (constant S256x4096 .f32 0x00000000#32) (ix2 p q'))
      + broadcastTo S256x4096 (shapeCast S1x4096 v11 shapeCasts_S1x4096_S1x4096) broadcasts_S1x4096_S256x4096 (ix2 p q') = _
  rw [Cert.LibMatmulSum.matmul_zero_at plain, Cert.LibMatmulSum.matmul_zero_at plain, broadcastTo_1b_ab_apply, shapeCast_self, shapeCast_self, shapeCast_self]
  rfl

/-- A column block of the pre-activations cut at offset `off`, at (p, q). -/
theorem slice_gates (v0 v2 : FVec Ideal S256x1024 .f32) (v4 v7 : FVec Ideal S1024x4096 .bf16) (v11 : FVec Ideal S1x4096 .f32) (off : ℕ) (h : S256x4096.Slices ![0, off] S256x1024) (p : Fin 256) (q : Fin 1024) (q' : Fin 4096)
    (hq : q'.val = off + q.val) :
    extractStridedSlice S256x1024 ![0, off] (k0_pay3 (F := Ideal) v0 v2 v4 v7 v11) h (ix2 p q) = gatesAt v0 v2 v4 v7 v11 p q' := by
  refine (Cert.LibCat2.slice_apply 0 off (k0_pay3 (F := Ideal) v0 v2 v4 v7 v11) h p q (by have := p.isLt; omega) (by have := q'.isLt; omega)).trans ?_
  refine (pay3_at v0 v2 v4 v7 v11 _ _).trans ?_
  exact congrArg₂ (gatesAt v0 v2 v4 v7 v11) (Fin.ext (Nat.zero_add _)) (Fin.ext hq.symm)

theorem pay4_at (v0 v2 : FVec Ideal S256x1024 .f32) (v4 v7 : FVec Ideal S1024x4096 .bf16) (v11 : FVec Ideal S1x4096 .f32) (p : Fin 256) (q : Fin 1024) (q' : Fin 4096) (hq : q'.val = 0 + q.val) :
    k0_pay4 (F := Ideal) v0 v2 v4 v7 v11 (ix2 p q) = sg (gatesAt v0 v2 v4 v7 v11 p q') := by
  unfold k0_pay4 sg
  show half * (one + Ideal.tanh (half * extractStridedSlice S256x1024 ![0, 0] (k0_pay3 (F := Ideal) v0 v2 v4 v7 v11) slices_S256x4096_o0_0_S256x1024 (ix2 p q))) = _
  rw [slice_gates v0 v2 v4 v7 v11 0 _ p q q' hq]

theorem pay5_at (v0 v2 : FVec Ideal S256x1024 .f32) (v4 v7 : FVec Ideal S1024x4096 .bf16) (v11 : FVec Ideal S1x4096 .f32) (p : Fin 256) (q : Fin 1024) (q' : Fin 4096) (hq : q'.val = 1024 + q.val) :
    k0_pay5 (F := Ideal) v0 v2 v4 v7 v11 (ix2 p q) = sg (gatesAt v0 v2 v4 v7 v11 p q') := by
  unfold k0_pay5 sg
  show half * (one + Ideal.tanh (half * extractStridedSlice S256x1024 ![0, 1024] (k0_pay3 (F := Ideal) v0 v2 v4 v7 v11) slices_S256x4096_o0_1024_S256x1024 (ix2 p q))) = _
  rw [slice_gates v0 v2 v4 v7 v11 1024 _ p q q' hq]

theorem pay6_at (v0 v2 : FVec Ideal S256x1024 .f32) (v4 v7 : FVec Ideal S1024x4096 .bf16) (v11 : FVec Ideal S1x4096 .f32) (p : Fin 256) (q : Fin 1024) (q' : Fin 4096) (hq : q'.val = 2048 + q.val) :
    k0_pay6 (F := Ideal) v0 v2 v4 v7 v11 (ix2 p q) = one + Ideal.tanh (half * gatesAt v0 v2 v4 v7 v11 p q') := by
  unfold k0_pay6
  show one + Ideal.tanh (half * extractStridedSlice S256x1024 ![0, 2048] (k0_pay3 (F := Ideal) v0 v2 v4 v7 v11) slices_S256x4096_o0_2048_S256x1024 (ix2 p q)) = _
  rw [slice_gates v0 v2 v4 v7 v11 2048 _ p q q' hq]

/-- The new cell state the body stores, at (p, q) of the block. -/
def cBlk (x0 x1 x2 : FVec Ideal S256x1024 .f32) (x3 x4 : FVec Ideal S1024x4096 .bf16) (x5 : FVec Ideal S1x4096 .f32) (p : Fin 256) (q : Fin 1024) : EReal :=
  sg (gatesAt x0 x1 x3 x4 x5 p ⟨q.val, by have := q.isLt; omega⟩) * x2 (ix2 p q)
    + sg (gatesAt x0 x1 x3 x4 x5 p ⟨1024 + q.val, by have := q.isLt; omega⟩) * Ideal.tanh (gatesAt x0 x1 x3 x4 x5 p ⟨3072 + q.val, by have := q.isLt; omega⟩)

/-- The new hidden state the body stores, at (p, q) of the block. -/
def hBlk (x0 x1 x2 : FVec Ideal S256x1024 .f32) (x3 x4 : FVec Ideal S1024x4096 .bf16) (x5 : FVec Ideal S1x4096 .f32) (p : Fin 256) (q : Fin 1024) : EReal :=
  sg (gatesAt x0 x1 x3 x4 x5 p ⟨2048 + q.val, by have := q.isLt; omega⟩) * Ideal.tanh (cBlk x0 x1 x2 x3 x4 x5 p q)

theorem hz : (![0, 0] : Fin 2 → Nat) = fun _ => 0 := funext fun a => by fin_cases a <;> rfl

theorem pay1_at (v0 v2 : FVec Ideal S256x1024 .f32) (v4 v7 : FVec Ideal S1024x4096 .bf16) (v11 : FVec Ideal S1x4096 .f32) (x2 : FVec Ideal S256x1024 .f32) (p : Fin 256) (q : Fin 1024) :
    k0_pay1 (F := Ideal) (k0_pay3 v0 v2 v4 v7 v11) (k0_pay4 v0 v2 v4 v7 v11) (k0_pay5 v0 v2 v4 v7 v11) x2 (ix2 p q) = cBlk v0 v2 x2 v4 v7 v11 p q := by
  unfold k0_pay1 cBlk
  show k0_pay4 (F := Ideal) v0 v2 v4 v7 v11 (ix2 p q) * x2 (ix2 p q) + k0_pay5 (F := Ideal) v0 v2 v4 v7 v11 (ix2 p q) * Ideal.tanh (extractStridedSlice S256x1024 ![0, 3072] (k0_pay3 (F := Ideal) v0 v2 v4 v7 v11) slices_S256x4096_o0_3072_S256x1024 (ix2 p q)) = _
  rw [pay4_at v0 v2 v4 v7 v11 p q ⟨q.val, by have := q.isLt; omega⟩ (Nat.zero_add _).symm, pay5_at v0 v2 v4 v7 v11 p q ⟨1024 + q.val, by have := q.isLt; omega⟩ rfl,
    slice_gates v0 v2 v4 v7 v11 3072 _ p q ⟨3072 + q.val, by have := q.isLt; omega⟩ rfl]

theorem pay2_at (v0 v2 : FVec Ideal S256x1024 .f32) (v4 v7 : FVec Ideal S1024x4096 .bf16) (v11 : FVec Ideal S1x4096 .f32) (x2 : FVec Ideal S256x1024 .f32) (p : Fin 256) (q : Fin 1024) :
    k0_pay2 (F := Ideal) (k0_pay3 v0 v2 v4 v7 v11) (k0_pay4 v0 v2 v4 v7 v11) (k0_pay5 v0 v2 v4 v7 v11) (k0_pay6 v0 v2 v4 v7 v11) (k0_pay7 (F := Ideal)) x2 (ix2 p q) = hBlk v0 v2 x2 v4 v7 v11 p q := by
  unfold k0_pay2 hBlk sg
  show (half * k0_pay6 (F := Ideal) v0 v2 v4 v7 v11 (ix2 p q)) * Ideal.tanh (k0_pay1 (F := Ideal) (k0_pay3 v0 v2 v4 v7 v11) (k0_pay4 v0 v2 v4 v7 v11) (k0_pay5 v0 v2 v4 v7 v11) x2 (ix2 p q)) = _
  rw [pay6_at v0 v2 v4 v7 v11 p q ⟨2048 + q.val, by have := q.isLt; omega⟩ rfl, pay1_at]

/-- The block stored as the new cell state, entry by entry. -/
theorem cOut_at (x0 x1 x2 : FVec Ideal S256x1024 .f32) (x3 x4 : FVec Ideal S1024x4096 .bf16) (x5 : FVec Ideal S1x4096 .f32) (p : Fin 256) (q : Fin 1024) :
    Cert.KernelIdeal.Hand.cOut (F := Ideal) x0 x1 x2 x3 x4 x5 (ix2 p q) = cBlk x0 x1 x2 x3 x4 x5 p q := by
  unfold Cert.KernelIdeal.Hand.cOut
  rw [View.canon_unit_zero hz]
  simp only [View.ld_unit_zero (S := S256x1024) hz, View.ld_unit_zero (S := S1024x4096) hz, View.ld_unit_zero (S := S1x4096) hz]
  exact pay1_at x0 x1 x3 x4 x5 x2 p q

/-- The block stored as the new hidden state, entry by entry. -/
theorem hOut_at (x0 x1 x2 : FVec Ideal S256x1024 .f32) (x3 x4 : FVec Ideal S1024x4096 .bf16) (x5 : FVec Ideal S1x4096 .f32) (p : Fin 256) (q : Fin 1024) :
    Cert.KernelIdeal.Hand.hOut (F := Ideal) x0 x1 x2 x3 x4 x5 (ix2 p q) = hBlk x0 x1 x2 x3 x4 x5 p q := by
  unfold Cert.KernelIdeal.Hand.hOut
  rw [View.canon_unit_zero hz]
  simp only [View.ld_unit_zero (S := S256x1024) hz, View.ld_unit_zero (S := S1024x4096) hz, View.ld_unit_zero (S := S1x4096) hz]
  exact pay2_at x0 x1 x3 x4 x5 x2 p q

end Cert.KernelIdeal.BodyValue

end
-- ==== Proof.KIValue.lean ====
/-
  What the kernel program leaves in its two result arrays: the cell's new hidden state and new cell state as functions
  of the eleven arguments.

  Grid point t handles batch rows 256·t … 256·t + 255: the blocks of x, h, c and of both results at t are those rows
  (all 1024 columns), while the packed weights and the bias row are the same whole arrays at every point. So the
  body's pre-activation at row p of the block and packed column g·1024 + q is gate g's pre-activation at batch row
  256·t + p and unit q, and what point t writes back is block t of the two result functions. The 32 blocks tile the
  8192 rows, so each result array ends holding its function everywhere.
-/
import proofs.«152514_j18159121727814_2_alg».proof.Proof.KIHost
import proofs.«152514_j18159121727814_2_alg».proof.Proof.KIBody
import Idealize.ShloMosaic.Lib.Pipeline.Value

noncomputable section

namespace Cert.KernelIdeal.HandValue

open Cert.KernelIdeal Cert.KernelIdeal.Gen Cert.KernelIdeal.Hand Cert.KernelIdeal.HostRead Cert.KernelIdeal.BodyValue
open Idealize.ShloMosaic Idealize.ShloMosaic.TcCoe Idealize.ShloMosaic.ValueIdx Idealize.SL.Sem Cert.LstmCell
open Idealize.ShloMosaic.Pipeline (Dat)

variable (m : (ℓ : Loc nD τ sig) → Buf (Elt Ideal) ℓ) (ρ : Dev nD → PrngReg)

/-! ## The arguments, as arrays of extended reals -/

abbrev ax (c : Dev nD) : SRows.Idx → EReal := m ((c : Thread nD τ).loc main_arg0)
abbrev ah (c : Dev nD) : SRows.Idx → EReal := m ((c : Thread nD τ).loc main_arg1)
abbrev ac (c : Dev nD) : SRows.Idx → EReal := m ((c : Thread nD τ).loc main_arg2)
abbrev aWf (c : Dev nD) : SWt.Idx → EReal := m ((c : Thread nD τ).loc main_arg3)
abbrev abf (c : Dev nD) : SBias.Idx → EReal := m ((c : Thread nD τ).loc main_arg4)
abbrev aWi (c : Dev nD) : SWt.Idx → EReal := m ((c : Thread nD τ).loc main_arg5)
abbrev abi (c : Dev nD) : SBias.Idx → EReal := m ((c : Thread nD τ).loc main_arg6)
abbrev aWC (c : Dev nD) : SWt.Idx → EReal := m ((c : Thread nD τ).loc main_arg7)
abbrev abC (c : Dev nD) : SBias.Idx → EReal := m ((c : Thread nD τ).loc main_arg8)
abbrev aWo (c : Dev nD) : SWt.Idx → EReal := m ((c : Thread nD τ).loc main_arg9)
abbrev abo (c : Dev nD) : SBias.Idx → EReal := m ((c : Thread nD τ).loc main_arg10)

/-! ## Which block each window is on at a grid point -/

/-- Decided over the 32 points: the row-blocked windows are on block (t, 0), the resident ones on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 32 := lt_of_lt_of_eq t.isLt N_0

/-- Batch row 256·t + p. -/
abbrev rowOf (t : Fin cfg0.N) (p : Fin 256) : Fin 8192 := ⟨t.val * 256 + p.val, by have := t_lt t; have := p.isLt; omega⟩

/-! ## The input blocks, in terms of the arguments -/

theorem blk_rows0 (c : Dev nD) (t : Fin cfg0.N) (p : Fin 256) (k : Fin 1024) :
    iblk m c 0 t (ix2 p k) = ax m c (ix2 (rowOf t p) k) := by
  obtain ⟨e00, e01, e10, e11, e20, e21, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem blk_rows1 (c : Dev nD) (t : Fin cfg0.N) (p : Fin 256) (k : Fin 1024) :
    iblk m c 1 t (ix2 p k) = ah m c (ix2 (rowOf t p) k) := by
  obtain ⟨e00, e01, e10, e11, e20, e21, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem blk_rows2 (c : Dev nD) (t : Fin cfg0.N) (p : Fin 256) (k : Fin 1024) :
    iblk m c 2 t (ix2 p k) = ac m c (ix2 (rowOf t p) k) := by
  obtain ⟨e00, e01, e10, e11, e20, e21, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem blk_upper (c : Dev nD) (t : Fin cfg0.N) (k : Fin 1024) (q' : Fin 4096) :
    iblk m c 3 t (ix2 k q') = (V m c main_v8 : S1024x4096.Idx → EReal) (ix2 k q') := by
  obtain ⟨-, -, -, -, -, -, e30, e31, -⟩ := idx_facts t
  show V m c main_v8 (((cfg0.win 3).blk t).view.emb (ix2 k q')) = _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * q'.val = q'.val; omega

theorem blk_lower (c : Dev nD) (t : Fin cfg0.N) (k : Fin 1024) (q' : Fin 4096) :
    iblk m c 4 t (ix2 k q') = (V m c main_v17 : S1024x4096.Idx → EReal) (ix2 k q') := by
  obtain ⟨-, -, -, -, -, -, -, -, e40, e41, -⟩ := idx_facts t
  show V m c main_v17 (((cfg0.win 4).blk t).view.emb (ix2 k q')) = _
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * q'.val = q'.val; omega

theorem blk_bias (c : Dev nD) (t : Fin cfg0.N) (u : Fin 1) (q' : Fin 4096) :
    iblk m c 5 t (ix2 u q') = (V m c main_v19 : S1x4096.Idx → EReal) (ix2 u q') := by
  obtain ⟨-, -, -, -, -, -, -, -, -, -, e50, e51, -⟩ := idx_facts t
  show V m c main_v19 (((cfg0.win 5).blk t).view.emb (ix2 u q')) = _
  refine congrArg _ (funext fun a => Fin.ext ?_)
  match a with
  | ⟨0, _⟩ => show win0_5.index t (0 : Fin 2) * 1 + 1 * u.val = u.val; omega
  | ⟨1, _⟩ => show win0_5.index t (1 : Fin 2) * 4096 + 1 * q'.val = q'.val; omega

/-! ## The body's pre-activations are the gates' -/

/-- At point t, row p and packed column 0 + q: gate f's pre-activation at batch row 256·t + p, unit q. -/
theorem gate_blk_f (c : Dev nD) (t : Fin cfg0.N) (p : Fin 256) (q : Fin 1024) (q' : Fin 4096) (hq : q'.val = 0 + q.val) :
    gatesAt (iblk m c 0 t) (iblk m c 1 t) (iblk m c 3 t) (iblk m c 4 t) (iblk m c 5 t) p q' = pre (ax m c) (ah m c) (aWf m c) (abf m c) (rowOf t p) q := by
  unfold gatesAt pre
  refine congrArg₂ (· + ·) (congrArg₂ (· + ·) (Finset.sum_congr rfl fun k _ => ?_) (Finset.sum_congr rfl fun k _ => ?_)) ?_
  · rw [blk_rows0, blk_upper, upper_f m c k q q' hq]
  · rw [blk_rows1, blk_lower, lower_f m c k q q' hq]
  · rw [blk_bias, bias_f m c 0 q q' hq]

/-- At point t, row p and packed column 1024 + q: gate i's pre-activation at batch row 256·t + p, unit q. -/
theorem gate_blk_i (c : Dev nD) (t : Fin cfg0.N) (p : Fin 256) (q : Fin 1024) (q' : Fin 4096) (hq : q'.val = 1024 + q.val) :
    gatesAt (iblk m c 0 t) (iblk m c 1 t) (iblk m c 3 t) (iblk m c 4 t) (iblk m c 5 t) p q' = pre (ax m c) (ah m c) (aWi m c) (abi m c) (rowOf t p) q := by
  unfold gatesAt pre
  refine congrArg₂ (· + ·) (congrArg₂ (· + ·) (Finset.sum_congr rfl fun k _ => ?_) (Finset.sum_congr rfl fun k _ => ?_)) ?_
  · rw [blk_rows0, blk_upper, upper_i m c k q q' hq]
  · rw [blk_rows1, blk_lower, lower_i m c k q q' hq]
  · rw [blk_bias, bias_i m c 0 q q' hq]

/-- At point t, row p and packed column 1024 + 1024 + q: gate o's pre-activation at batch row 256·t + p, unit q. -/
theorem gate_blk_o (c : Dev nD) (t : Fin cfg0.N) (p : Fin 256) (q : Fin 1024) (q' : Fin 4096) (hq : q'.val = 1024 + 1024 + q.val) :
    gatesAt (iblk m c 0 t) (iblk m c 1 t) (iblk m c 3 t) (iblk m c 4 t) (iblk m c 5 t) p q' = pre (ax m c) (ah m c) (aWo m c) (abo m c) (rowOf t p) q := by
  unfold gatesAt pre
  refine congrArg₂ (· + ·) (congrArg₂ (· + ·) (Finset.sum_congr rfl fun k _ => ?_) (Finset.sum_congr rfl fun k _ => ?_)) ?_
  · rw [blk_rows0, blk_upper, upper_o m c k q q' hq]
  · rw [blk_rows1, blk_lower, lower_o m c k q q' hq]
  · rw [blk_bias, bias_o m c 0 q q' hq]

/-- At point t, row p and packed column 1024 + 1024 + 1024 + q: gate C's pre-activation at batch row 256·t + p, unit q. -/
theorem gate_blk_C (c : Dev nD) (t : Fin cfg0.N) (p : Fin 256) (q : Fin 1024) (q' : Fin 4096) (hq : q'.val = 1024 + 1024 + 1024 + q.val) :
    gatesAt (iblk m c 0 t) (iblk m c 1 t) (iblk m c 3 t) (iblk m c 4 t) (iblk m c 5 t) p q' = pre (ax m c) (ah m c) (aWC m c) (abC m c) (rowOf t p) q := by
  unfold gatesAt pre
  refine congrArg₂ (· + ·) (congrArg₂ (· + ·) (Finset.sum_congr rfl fun k _ => ?_) (Finset.sum_congr rfl fun k _ => ?_)) ?_
  · rw [blk_rows0, blk_upper, upper_C m c k q q' hq]
  · rw [blk_rows1, blk_lower, lower_C m c k q q' hq]
  · rw [blk_bias, bias_C m c 0 q q' hq]

/-! ## What a point writes back -/

theorem emb_out6 (t : Fin cfg0.N) (p : Fin 256) (q : Fin 1024) :
    ((cfg0.win 6).blk t).view.emb (ix2 p q) = ix2 (rowOf t p) q := by
  obtain ⟨-, -, -, -, -, -, -, -, -, -, -, -, e60, e61, -⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * q.val = q.val; omega

theorem emb_out7 (t : Fin cfg0.N) (p : Fin 256) (q : Fin 1024) :
    ((cfg0.win 7).blk t).view.emb (ix2 p q) = ix2 (rowOf t p) q := by
  obtain ⟨-, -, -, -, -, -, -, -, -, -, -, -, -, -, e70, e71⟩ := idx_facts t
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * q.val = q.val; omega

/-- The cell-state entry the body stores at (p, q) of point t's block is the new cell state at (256·t + p, q). -/
theorem cBlk_eq (c : Dev nD) (t : Fin cfg0.N) (p : Fin 256) (q : Fin 1024) :
    cBlk (iblk m c 0 t) (iblk m c 1 t) (iblk m c 2 t) (iblk m c 3 t) (iblk m c 4 t) (iblk m c 5 t) p q = cAt (ax m c) (ah m c) (ac m c) (aWf m c) (abf m c) (aWi m c) (abi m c) (aWC m c) (abC m c) (rowOf t p) q := by
  unfold cBlk cAt
  rw [gate_blk_f m c t p q _ (Nat.zero_add _).symm, gate_blk_i m c t p q _ rfl, gate_blk_C m c t p q _ rfl, blk_rows2]

/-- Point t writes back block t of the new cell state. -/
theorem flushed_c (c : Dev nD) (t : Fin cfg0.N) :
    (dats m 0 c).flushed 7 t = ((cfg0.win 7).blk t).view.read (Elt Ideal) (cNew (ax m c) (ah m c) (ac m c) (aWf m c) (abf m c) (aWi m c) (abi m c) (aWC m c) (abC m c)) := by
  show (cfg0.win 7).cut (grid0.coords t) ((dats m 0 c).after 7 t) = _
  rw [after7]
  refine funext fun (y : S256x1024.Idx) => ?_
  obtain ⟨p, q, rfl⟩ : ∃ (p : Fin 256) (q : Fin 1024), y = ix2 p q := ⟨y 0, y 1, eq_ix2 y⟩
  show cOut (iblk m c 0 t) (iblk m c 1 t) (iblk m c 2 t) (iblk m c 3 t) (iblk m c 4 t) (iblk m c 5 t) (ix2 p q) = cNew (ax m c) (ah m c) (ac m c) (aWf m c) (abf m c) (aWi m c) (abi m c) (aWC m c) (abC m c) (((cfg0.win 7).blk t).view.emb (ix2 p q))
  rw [emb_out7 t p q]
  refine (cOut_at _ _ _ _ _ _ p q).trans ?_
  exact cBlk_eq m c t p q

/-- Point t writes back block t of the new hidden state. -/
theorem flushed_h (c : Dev nD) (t : Fin cfg0.N) :
    (dats m 0 c).flushed 6 t = ((cfg0.win 6).blk t).view.read (Elt Ideal) (hNew (ax m c) (ah m c) (ac m c) (aWf m c) (abf m c) (aWi m c) (abi m c) (aWC m c) (abC m c) (aWo m c) (abo m c)) := by
  show (cfg0.win 6).cut (grid0.coords t) ((dats m 0 c).after 6 t) = _
  rw [after6]
  refine funext fun (y : S256x1024.Idx) => ?_
  obtain ⟨p, q, rfl⟩ : ∃ (p : Fin 256) (q : Fin 1024), y = ix2 p q := ⟨y 0, y 1, eq_ix2 y⟩
  show hOut (iblk m c 0 t) (iblk m c 1 t) (iblk m c 2 t) (iblk m c 3 t) (iblk m c 4 t) (iblk m c 5 t) (ix2 p q) = hNew (ax m c) (ah m c) (ac m c) (aWf m c) (abf m c) (aWi m c) (abi m c) (aWC m c) (abC m c) (aWo m c) (abo m c) (((cfg0.win 6).blk t).view.emb (ix2 p q))
  rw [emb_out6 t p q]
  refine (hOut_at _ _ _ _ _ _ p q).trans ?_
  show hBlk (iblk m c 0 t) (iblk m c 1 t) (iblk m c 2 t) (iblk m c 3 t) (iblk m c 4 t) (iblk m c 5 t) p q = hAt (ax m c) (ah m c) (ac m c) (aWf m c) (abf m c) (aWi m c) (abi m c) (aWC m c) (abC m c) (aWo m c) (abo m c) (rowOf t p) q
  unfold hBlk hAt
  rw [gate_blk_o m c t p q _ rfl, cBlk_eq]

/-! ## The blocks tile the rows -/

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v20_0).slice (win0_6.rect t)).set ↔ _
  rw [View.set_slice_whole, Rect.mem_set_unit]
  exact Iff.rfl

/-- Row r is in the block of point r / 256. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, htv⟩ : ∃ t : Fin cfg0.N, t.val = (i 0).val / 256 :=
    ⟨⟨(i 0).val / 256, lt_of_lt_of_eq (by omega : (i 0).val / 256 < 32) N_0.symm⟩, rfl⟩
  obtain ⟨-, -, -, -, -, -, -, -, -, -, -, -, e60, e61, e70, e71⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v20_1).slice (win0_7.rect t)).set ↔ _
  rw [View.set_slice_whole, Rect.mem_set_unit]
  exact Iff.rfl

/-- Row r is in the block of point r / 256. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, htv⟩ : ∃ t : Fin cfg0.N, t.val = (i 0).val / 256 :=
    ⟨⟨(i 0).val / 256, lt_of_lt_of_eq (by omega : (i 0).val / 256 < 32) N_0.symm⟩, rfl⟩
  obtain ⟨-, -, -, -, -, -, -, -, -, -, -, -, e60, e61, e70, e71⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-! ## The result arrays after the run -/

theorem final_h (c : Dev nD) : (dats m 0 c).arrAt 6 cfg0.N = hNew (ax m c) (ah m c) (ac m c) (aWf m c) (abf m c) (aWi m c) (abi m c) (aWC m c) (abC m c) (aWo m c) (abo m c) :=
  (dats m 0 c).arrAt_eq_of_cover 6 _ (fun t _ => flushed_h m c t) cover6

theorem final_c (c : Dev nD) : (dats m 0 c).arrAt 7 cfg0.N = cNew (ax m c) (ah m c) (ac m c) (aWf m c) (abf m c) (aWi m c) (abi m c) (aWC m c) (abC m c) :=
  (dats m 0 c).arrAt_eq_of_cover 7 _ (fun t _ => flushed_c m c t) cover7

/-- Every weakly fair execution of the kernel program terminates with the first result the new hidden state, the second
    the new cell state, and the arguments unchanged. -/
theorem run : θ_run defs (onTc (τ := τ) (main (F := Ideal))) ⟨m, fun _ => 0, ρ⟩ fun r => ∀ c : Dev nD,
      r.2.mem ((c.tc : Thread nD τ).loc main_v20_0) = hNew (ax m c) (ah m c) (ac m c) (aWf m c) (abf m c) (aWi m c) (abi m c) (aWC m c) (abC m c) (aWo m c) (abo m c)
      ∧ r.2.mem ((c.tc : Thread nD τ).loc main_v20_1) = cNew (ax m c) (ah m c) (ac m c) (aWf m c) (abf m c) (aWi m c) (abi m c) (aWC m c) (abC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final_h m c), ((h c).1 7).trans (final_c m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.HandValue

end
-- ==== Proof.RefIsSpec.lean ====
/-
  The reference's two results, read at an index, are the cell's new hidden state and new cell state as functions of
  the eleven arguments.

  The reference joins x and h side by side (8192 × 2048), the four weight matrices side by side (2048 × 4096, in the
  order forget, input, output, candidate) and the four biases end to end, and takes one matrix product plus the bias.
  Entry (p, g·1024 + q) of that sum is gate g's pre-activation at (p, q): the contraction over 2048 positions splits
  into the first 1024, where the joined left operand is x, and the last 1024, where it is h; column g·1024 + q of
  the joined weights is column q of gate g's matrix; entry g·1024 + q of the joined biases is entry q of gate g's.
  The reference's logistic,  1 / (1 + exp(−g)),  is the specification's at every extended real.
-/
import proofs.«152514_j18159121727814_2_alg».proof.Proof.Gen.ReferenceIdeal.Read
import proofs.«152514_j18159121727814_2_alg».proof.Proof.Spec
import proofs.«152514_j18159121727814_2_alg».proof.Proof.LibCat2
import proofs.«152514_j18159121727814_2_alg».proof.Proof.LibCat4

noncomputable section

namespace Cert.ReferenceIdeal.RefValue

open Cert.ReferenceIdeal Cert.ReferenceIdeal.Gen Cert.ReferenceIdeal.Read Idealize.ShloMosaic Idealize.ShloMosaic.ValueIdx Cert.LstmCell

abbrev Arr := (⟨S8192x1024, .f32⟩ : BufTy).Contents (Elt Ideal)
abbrev Wt := (⟨S2048x1024, .f32⟩ : BufTy).Contents (Elt Ideal)
abbrev Bs := (⟨S1024, .f32⟩ : BufTy).Contents (Elt Ideal)

/-- x and h side by side: column k of the first 1024 is x's column k. -/
theorem joined_left (x0 x1 : Arr) (p : Fin 8192) (k : Fin 1024) (k' : Fin 2048) (hk : k'.val = k.val) :
    val_main_v0 (F := Ideal) x0 x1 (ix2 p k') = x0 (ix2 p k) := by
  unfold val_main_v0
  refine (Cert.LibCat2.cols_apply (w1 := 1024) (w2 := 1024) (n := 8192) (w := 2048) rfl x0 x1 concatenates_S8192x1024_S8192x1024_S8192x2048_d1 p k').trans ?_
  rw [dif_pos (show k'.val < 1024 by have := k.isLt; omega)]
  exact congrArg x0 (congrArg (ix2 p) (Fin.ext hk))

/-- x and h side by side: column 1024 + k is h's column k. -/
theorem joined_right (x0 x1 : Arr) (p : Fin 8192) (k : Fin 1024) (k' : Fin 2048) (hk : k'.val = 1024 + k.val) :
    val_main_v0 (F := Ideal) x0 x1 (ix2 p k') = x1 (ix2 p k) := by
  unfold val_main_v0
  refine (Cert.LibCat2.cols_apply (w1 := 1024) (w2 := 1024) (n := 8192) (w := 2048) rfl x0 x1 concatenates_S8192x1024_S8192x1024_S8192x2048_d1 p k').trans ?_
  rw [dif_neg (show ¬ k'.val < 1024 by omega)]
  exact congrArg x1 (congrArg (ix2 p) (Fin.ext (by show k'.val - 1024 = k.val; omega)))

/-- Entry (p, 0 + q) of the product plus bias is the pre-activation of gate f at (p, q). -/
theorem gate_f (x0 x1 : Arr) (x3 : Wt) (x4 : Bs) (x5 : Wt) (x6 : Bs) (x7 : Wt) (x8 : Bs) (x9 : Wt) (x10 : Bs) (p : Fin 8192) (q : Fin 1024) (q' : Fin 4096) (hq : q'.val = 0 + q.val) :
    val_main_v6 (F := Ideal) x0 x1 x3 x4 x5 x6 x7 x8 x9 x10 (ix2 p q') = pre x0 x1 x3 x4 p q := by
  rw [val_main_v6_apply, val_main_v3_apply, val_main_v5_apply, val_main_v4_apply]
  have hb : val_main_v2 (F := Ideal) x4 x6 x8 x10 (idx_main_v4 (idx_main_v5 (ix2 p q'))) = x4 (ix1 q) := by
    have e : idx_main_v4 (idx_main_v5 (ix2 p q')) = ix1 q' := funext fun a => match a with | ⟨0, _⟩ => rfl
    rw [e]; unfold val_main_v2
    exact Cert.LibCat4.vec4_0 (w := 1024) (W := 4096) x4 x6 x10 x8 concatenates_S1024_S1024_S1024_S1024_S4096_d0 q q' hq
  have hw : ∀ k : Fin 2048, val_main_v1 (F := Ideal) x3 x5 x7 x9 (ridx_main_v3 (ix2 p q') k) = x3 (ix2 k q) := fun k => by
    have e : ridx_main_v3 (ix2 p q') k = ix2 k q' := funext fun a => match a with | ⟨0, _⟩ => rfl | ⟨1, _⟩ => rfl
    rw [e]; unfold val_main_v1
    exact Cert.LibCat4.cols4_0 (n := 2048) (w := 1024) (W := 4096) x3 x5 x9 x7 concatenates_S2048x1024_S2048x1024_S2048x1024_S2048x1024_S2048x4096_d1 k q q' hq
  have hl : ∀ k : Fin 2048, lidx_main_v3 (ix2 p q') k = ix2 p k := fun k => funext fun a => match a with | ⟨0, _⟩ => rfl | ⟨1, _⟩ => rfl
  rw [hb]
  unfold pre
  show (∑ k : Fin 2048, val_main_v0 (F := Ideal) x0 x1 (lidx_main_v3 (ix2 p q') k) * val_main_v1 (F := Ideal) x3 x5 x7 x9 (ridx_main_v3 (ix2 p q') k)) + x4 (ix1 q) = _
  refine congrArg (· + x4 (ix1 q)) ?_
  rw [sum_split]
  refine congrArg₂ (· + ·) (Finset.sum_congr rfl fun k _ => ?_) (Finset.sum_congr rfl fun k _ => ?_)
  · rw [hw, hl, joined_left x0 x1 p k _ rfl]
  · rw [hw, hl, joined_right x0 x1 p k _ rfl]

/-- Entry (p, 1024 + q) of the product plus bias is the pre-activation of gate i at (p, q). -/
theorem gate_i (x0 x1 : Arr) (x3 : Wt) (x4 : Bs) (x5 : Wt) (x6 : Bs) (x7 : Wt) (x8 : Bs) (x9 : Wt) (x10 : Bs) (p : Fin 8192) (q : Fin 1024) (q' : Fin 4096) (hq : q'.val = 1024 + q.val) :
    val_main_v6 (F := Ideal) x0 x1 x3 x4 x5 x6 x7 x8 x9 x10 (ix2 p q') = pre x0 x1 x5 x6 p q := by
  rw [val_main_v6_apply, val_main_v3_apply, val_main_v5_apply, val_main_v4_apply]
  have hb : val_main_v2 (F := Ideal) x4 x6 x8 x10 (idx_main_v4 (idx_main_v5 (ix2 p q'))) = x6 (ix1 q) := by
    have e : idx_main_v4 (idx_main_v5 (ix2 p q')) = ix1 q' := funext fun a => match a with | ⟨0, _⟩ => rfl
    rw [e]; unfold val_main_v2
    exact Cert.LibCat4.vec4_1 (w := 1024) (W := 4096) x4 x6 x10 x8 concatenates_S1024_S1024_S1024_S1024_S4096_d0 q q' hq
  have hw : ∀ k : Fin 2048, val_main_v1 (F := Ideal) x3 x5 x7 x9 (ridx_main_v3 (ix2 p q') k) = x5 (ix2 k q) := fun k => by
    have e : ridx_main_v3 (ix2 p q') k = ix2 k q' := funext fun a => match a with | ⟨0, _⟩ => rfl | ⟨1, _⟩ => rfl
    rw [e]; unfold val_main_v1
    exact Cert.LibCat4.cols4_1 (n := 2048) (w := 1024) (W := 4096) x3 x5 x9 x7 concatenates_S2048x1024_S2048x1024_S2048x1024_S2048x1024_S2048x4096_d1 k q q' hq
  have hl : ∀ k : Fin 2048, lidx_main_v3 (ix2 p q') k = ix2 p k := fun k => funext fun a => match a with | ⟨0, _⟩ => rfl | ⟨1, _⟩ => rfl
  rw [hb]
  unfold pre
  show (∑ k : Fin 2048, val_main_v0 (F := Ideal) x0 x1 (lidx_main_v3 (ix2 p q') k) * val_main_v1 (F := Ideal) x3 x5 x7 x9 (ridx_main_v3 (ix2 p q') k)) + x6 (ix1 q) = _
  refine congrArg (· + x6 (ix1 q)) ?_
  rw [sum_split]
  refine congrArg₂ (· + ·) (Finset.sum_congr rfl fun k _ => ?_) (Finset.sum_congr rfl fun k _ => ?_)
  · rw [hw, hl, joined_left x0 x1 p k _ rfl]
  · rw [hw, hl, joined_right x0 x1 p k _ rfl]

/-- Entry (p, 2048 + q) of the product plus bias is the pre-activation of gate o at (p, q). -/
theorem gate_o (x0 x1 : Arr) (x3 : Wt) (x4 : Bs) (x5 : Wt) (x6 : Bs) (x7 : Wt) (x8 : Bs) (x9 : Wt) (x10 : Bs) (p : Fin 8192) (q : Fin 1024) (q' : Fin 4096) (hq : q'.val = 1024 + 1024 + q.val) :
    val_main_v6 (F := Ideal) x0 x1 x3 x4 x5 x6 x7 x8 x9 x10 (ix2 p q') = pre x0 x1 x9 x10 p q := by
  rw [val_main_v6_apply, val_main_v3_apply, val_main_v5_apply, val_main_v4_apply]
  have hb : val_main_v2 (F := Ideal) x4 x6 x8 x10 (idx_main_v4 (idx_main_v5 (ix2 p q'))) = x10 (ix1 q) := by
    have e : idx_main_v4 (idx_main_v5 (ix2 p q')) = ix1 q' := funext fun a => match a with | ⟨0, _⟩ => rfl
    rw [e]; unfold val_main_v2
    exact Cert.LibCat4.vec4_2 (w := 1024) (W := 4096) x4 x6 x10 x8 concatenates_S1024_S1024_S1024_S1024_S4096_d0 q q' hq
  have hw : ∀ k : Fin 2048, val_main_v1 (F := Ideal) x3 x5 x7 x9 (ridx_main_v3 (ix2 p q') k) = x9 (ix2 k q) := fun k => by
    have e : ridx_main_v3 (ix2 p q') k = ix2 k q' := funext fun a => match a with | ⟨0, _⟩ => rfl | ⟨1, _⟩ => rfl
    rw [e]; unfold val_main_v1
    exact Cert.LibCat4.cols4_2 (n := 2048) (w := 1024) (W := 4096) x3 x5 x9 x7 concatenates_S2048x1024_S2048x1024_S2048x1024_S2048x1024_S2048x4096_d1 k q q' hq
  have hl : ∀ k : Fin 2048, lidx_main_v3 (ix2 p q') k = ix2 p k := fun k => funext fun a => match a with | ⟨0, _⟩ => rfl | ⟨1, _⟩ => rfl
  rw [hb]
  unfold pre
  show (∑ k : Fin 2048, val_main_v0 (F := Ideal) x0 x1 (lidx_main_v3 (ix2 p q') k) * val_main_v1 (F := Ideal) x3 x5 x7 x9 (ridx_main_v3 (ix2 p q') k)) + x10 (ix1 q) = _
  refine congrArg (· + x10 (ix1 q)) ?_
  rw [sum_split]
  refine congrArg₂ (· + ·) (Finset.sum_congr rfl fun k _ => ?_) (Finset.sum_congr rfl fun k _ => ?_)
  · rw [hw, hl, joined_left x0 x1 p k _ rfl]
  · rw [hw, hl, joined_right x0 x1 p k _ rfl]

/-- Entry (p, 3072 + q) of the product plus bias is the pre-activation of gate C at (p, q). -/
theorem gate_C (x0 x1 : Arr) (x3 : Wt) (x4 : Bs) (x5 : Wt) (x6 : Bs) (x7 : Wt) (x8 : Bs) (x9 : Wt) (x10 : Bs) (p : Fin 8192) (q : Fin 1024) (q' : Fin 4096) (hq : q'.val = 1024 + 1024 + 1024 + q.val) :
    val_main_v6 (F := Ideal) x0 x1 x3 x4 x5 x6 x7 x8 x9 x10 (ix2 p q') = pre x0 x1 x7 x8 p q := by
  rw [val_main_v6_apply, val_main_v3_apply, val_main_v5_apply, val_main_v4_apply]
  have hb : val_main_v2 (F := Ideal) x4 x6 x8 x10 (idx_main_v4 (idx_main_v5 (ix2 p q'))) = x8 (ix1 q) := by
    have e : idx_main_v4 (idx_main_v5 (ix2 p q')) = ix1 q' := funext fun a => match a with | ⟨0, _⟩ => rfl
    rw [e]; unfold val_main_v2
    exact Cert.LibCat4.vec4_3 (w := 1024) (W := 4096) x4 x6 x10 x8 concatenates_S1024_S1024_S1024_S1024_S4096_d0 q q' hq
  have hw : ∀ k : Fin 2048, val_main_v1 (F := Ideal) x3 x5 x7 x9 (ridx_main_v3 (ix2 p q') k) = x7 (ix2 k q) := fun k => by
    have e : ridx_main_v3 (ix2 p q') k = ix2 k q' := funext fun a => match a with | ⟨0, _⟩ => rfl | ⟨1, _⟩ => rfl
    rw [e]; unfold val_main_v1
    exact Cert.LibCat4.cols4_3 (n := 2048) (w := 1024) (W := 4096) x3 x5 x9 x7 concatenates_S2048x1024_S2048x1024_S2048x1024_S2048x1024_S2048x4096_d1 k q q' hq
  have hl : ∀ k : Fin 2048, lidx_main_v3 (ix2 p q') k = ix2 p k := fun k => funext fun a => match a with | ⟨0, _⟩ => rfl | ⟨1, _⟩ => rfl
  rw [hb]
  unfold pre
  show (∑ k : Fin 2048, val_main_v0 (F := Ideal) x0 x1 (lidx_main_v3 (ix2 p q') k) * val_main_v1 (F := Ideal) x3 x5 x7 x9 (ridx_main_v3 (ix2 p q') k)) + x8 (ix1 q) = _
  refine congrArg (· + x8 (ix1 q)) ?_
  rw [sum_split]
  refine congrArg₂ (· + ·) (Finset.sum_congr rfl fun k _ => ?_) (Finset.sum_congr rfl fun k _ => ?_)
  · rw [hw, hl, joined_left x0 x1 p k _ rfl]
  · rw [hw, hl, joined_right x0 x1 p k _ rfl]

/-- The reference's logistic of gate f at (p, q). -/
theorem sig_f (x0 x1 : Arr) (x3 : Wt) (x4 : Bs) (x5 : Wt) (x6 : Bs) (x7 : Wt) (x8 : Bs) (x9 : Wt) (x10 : Bs) (p : Fin 8192) (q : Fin 1024) :
    val_main_v13 (F := Ideal) x0 x1 x3 x4 x5 x6 x7 x8 x9 x10 (ix2 p q) = sg (pre x0 x1 x3 x4 p q) := by
  have e : idx_main_v7 (ix2 p q) = ix2 p (⟨q.val, by have := q.isLt; omega⟩ : Fin 4096) :=
    funext fun a => match a with | ⟨0, _⟩ => rfl | ⟨1, _⟩ => rfl
  rw [val_main_v13_apply, val_main_v12_apply, val_main_cst_0_apply, val_main_v11_apply, val_main_v10_apply, val_main_cst_apply,
    val_main_v9_apply, val_main_v8_apply, val_main_v7_apply, e, gate_f x0 x1 x3 x4 x5 x6 x7 x8 x9 x10 p q _ (by simp)]
  exact logistic_eq _

/-- The reference's logistic of gate i at (p, q). -/
theorem sig_i (x0 x1 : Arr) (x3 : Wt) (x4 : Bs) (x5 : Wt) (x6 : Bs) (x7 : Wt) (x8 : Bs) (x9 : Wt) (x10 : Bs) (p : Fin 8192) (q : Fin 1024) :
    val_main_v20 (F := Ideal) x0 x1 x3 x4 x5 x6 x7 x8 x9 x10 (ix2 p q) = sg (pre x0 x1 x5 x6 p q) := by
  have e : idx_main_v14 (ix2 p q) = ix2 p (⟨1024 + q.val, by have := q.isLt; omega⟩ : Fin 4096) :=
    funext fun a => match a with | ⟨0, _⟩ => rfl | ⟨1, _⟩ => rfl
  rw [val_main_v20_apply, val_main_v19_apply, val_main_cst_2_apply, val_main_v18_apply, val_main_v17_apply, val_main_cst_1_apply,
    val_main_v16_apply, val_main_v15_apply, val_main_v14_apply, e, gate_i x0 x1 x3 x4 x5 x6 x7 x8 x9 x10 p q _ (by simp)]
  exact logistic_eq _

/-- The reference's logistic of gate o at (p, q). -/
theorem sig_o (x0 x1 : Arr) (x3 : Wt) (x4 : Bs) (x5 : Wt) (x6 : Bs) (x7 : Wt) (x8 : Bs) (x9 : Wt) (x10 : Bs) (p : Fin 8192) (q : Fin 1024) :
    val_main_v27 (F := Ideal) x0 x1 x3 x4 x5 x6 x7 x8 x9 x10 (ix2 p q) = sg (pre x0 x1 x9 x10 p q) := by
  have e : idx_main_v21 (ix2 p q) = ix2 p (⟨2048 + q.val, by have := q.isLt; omega⟩ : Fin 4096) :=
    funext fun a => match a with | ⟨0, _⟩ => rfl | ⟨1, _⟩ => rfl
  rw [val_main_v27_apply, val_main_v26_apply, val_main_cst_4_apply, val_main_v25_apply, val_main_v24_apply, val_main_cst_3_apply,
    val_main_v23_apply, val_main_v22_apply, val_main_v21_apply, e, gate_o x0 x1 x3 x4 x5 x6 x7 x8 x9 x10 p q _ (by simp)]
  exact logistic_eq _

/-- The reference's tanh of the candidate gate at (p, q). -/
theorem tanh_C (x0 x1 : Arr) (x3 : Wt) (x4 : Bs) (x5 : Wt) (x6 : Bs) (x7 : Wt) (x8 : Bs) (x9 : Wt) (x10 : Bs) (p : Fin 8192) (q : Fin 1024) :
    val_main_v29 (F := Ideal) x0 x1 x3 x4 x5 x6 x7 x8 x9 x10 (ix2 p q) = Ideal.tanh (pre x0 x1 x7 x8 p q) := by
  have e : idx_main_v28 (ix2 p q) = ix2 p (⟨3072 + q.val, by have := q.isLt; omega⟩ : Fin 4096) :=
    funext fun a => match a with | ⟨0, _⟩ => rfl | ⟨1, _⟩ => rfl
  rw [val_main_v29_apply, val_main_v28_apply, e, gate_C x0 x1 x3 x4 x5 x6 x7 x8 x9 x10 p q _ (by simp)]
  rfl

/-- The reference's second result is the new cell state. -/
theorem ref_c (x0 x1 x2 : Arr) (x3 : Wt) (x4 : Bs) (x5 : Wt) (x6 : Bs) (x7 : Wt) (x8 : Bs) (x9 : Wt) (x10 : Bs) :
    val_main_v32 (F := Ideal) x0 x1 x2 x3 x4 x5 x6 x7 x8 x9 x10 = cNew x0 x1 x2 x3 x4 x5 x6 x7 x8 := by
  funext j
  obtain ⟨p, q, rfl⟩ : ∃ (p : Fin 8192) (q : Fin 1024), j = ix2 p q := ⟨j 0, j 1, eq_ix2 j⟩
  rw [val_main_v32_apply, val_main_v30_apply, val_main_v31_apply, sig_f, sig_i, tanh_C]
  rfl

/-- The reference's first result is the new hidden state. -/
theorem ref_h (x0 x1 x2 : Arr) (x3 : Wt) (x4 : Bs) (x5 : Wt) (x6 : Bs) (x7 : Wt) (x8 : Bs) (x9 : Wt) (x10 : Bs) :
    val_main_v34 (F := Ideal) x0 x1 x2 x3 x4 x5 x6 x7 x8 x9 x10 = hNew x0 x1 x2 x3 x4 x5 x6 x7 x8 x9 x10 := by
  funext j
  obtain ⟨p, q, rfl⟩ : ∃ (p : Fin 8192) (q : Fin 1024), j = ix2 p q := ⟨j 0, j 1, eq_ix2 j⟩
  rw [val_main_v34_apply, val_main_v33_apply, sig_o, ref_c]
  rfl

end Cert.ReferenceIdeal.RefValue

end
-- ==== Proof.lean ====
/-
  An LSTM cell, computed by a tiled kernel and by a plain reference, gives the same new hidden state and new cell state
  at the ideal values.

  Both programs compute, for batch row p and hidden unit q and each of the four gates (forget, input, output,
  candidate) with weight matrix W and bias b,
      pre(p, q) = Σ_{k<1024} x(p,k)·W(k,q) + Σ_{k<1024} h(p,k)·W(1024+k,q) + b(q),
  then  c' = σ(pre_f)·c + σ(pre_i)·tanh(pre_C)  and  h' = σ(pre_o)·tanh(c').
  The kernel packs the upper and the lower halves of the four weight matrices into two arrays, multiplies 256-row
  blocks of x and of h by them in two products and adds these; the reference joins x with h and multiplies by the four
  matrices joined, in one product over 2048 positions — the same sum, split in the middle. The kernel writes the
  logistic function as ½·(1 + tanh(½·g)), the reference as 1 / (1 + exp(−g)): equal at every extended real, so the
  precondition that the inputs are finite is not used. Rounding to a narrower float format is the identity at the
  ideal values, so the ideal kernel is the kernel's own text and nothing is owed for the idealization.

  Frames: each kernel program is its packing operations followed by one launch over 32 grid points whose body reads
  six input blocks and overwrites two output blocks; the reference is a straight line of host operations.
-/
import proofs.«152514_j18159121727814_2_alg».proof.Defs
import proofs.«152514_j18159121727814_2_alg».proof.Proof.Gen.Kernel
import proofs.«152514_j18159121727814_2_alg».proof.Proof.Gen.KernelIdeal
import proofs.«152514_j18159121727814_2_alg».proof.Proof.Gen.ReferenceIdeal
import proofs.«152514_j18159121727814_2_alg».proof.Proof.Gen.Pre_finite_inputs
import proofs.«152514_j18159121727814_2_alg».proof.Proof.Gen.ReferenceIdeal.Run
import proofs.«152514_j18159121727814_2_alg».proof.Proof.Gen.ReferenceIdeal.Read
import proofs.«152514_j18159121727814_2_alg».proof.Proof.FrameK
import proofs.«152514_j18159121727814_2_alg».proof.Proof.KIValue
import proofs.«152514_j18159121727814_2_alg».proof.Proof.RefIsSpec

noncomputable section

namespace Cert.Proof

open Idealize.ShloMosaic Idealize.ShloMosaic.TcCoe Idealize.SL.Sem Cert.LstmCell

theorem frame_k : Cert.frame_Kernel := fun m ρ _ => Cert.Kernel.Hand.frame m ρ

theorem frame_ki : Cert.frame_KernelIdeal := fun m ρ _ => Cert.KernelIdeal.Hand.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the new hidden state and the new cell state of the same arguments. -/
theorem algebraic : Cert.algebraic_KernelIdeal_ReferenceIdeal := by
  intro m ρ m' ρ' _ hagree
  refine ⟨fun c => hNew (Cert.KernelIdeal.HandValue.ax m c) (Cert.KernelIdeal.HandValue.ah m c) (Cert.KernelIdeal.HandValue.ac m c) (Cert.KernelIdeal.HandValue.aWf m c) (Cert.KernelIdeal.HandValue.abf m c) (Cert.KernelIdeal.HandValue.aWi m c) (Cert.KernelIdeal.HandValue.abi m c) (Cert.KernelIdeal.HandValue.aWC m c) (Cert.KernelIdeal.HandValue.abC m c) (Cert.KernelIdeal.HandValue.aWo m c) (Cert.KernelIdeal.HandValue.abo m c), fun c => cNew (Cert.KernelIdeal.HandValue.ax m c) (Cert.KernelIdeal.HandValue.ah m c) (Cert.KernelIdeal.HandValue.ac m c) (Cert.KernelIdeal.HandValue.aWf m c) (Cert.KernelIdeal.HandValue.abf m c) (Cert.KernelIdeal.HandValue.aWi m c) (Cert.KernelIdeal.HandValue.abi m c) (Cert.KernelIdeal.HandValue.aWC m c) (Cert.KernelIdeal.HandValue.abC m c), Cert.KernelIdeal.HandValue.run m ρ, ?_⟩
  refine (θ_run Cert.ReferenceIdeal.defs _ _).mono (fun _ h c => ⟨?_, ?_, (h c).2.2⟩) (Cert.ReferenceIdeal.Value.run (F := Ideal) m' ρ')
  · obtain ⟨a0, a1, a2, a3, a4, a5, a6, a7, a8, a9, a10⟩ := hagree c
    refine (h c).1.trans ((Cert.ReferenceIdeal.Read.val_main_v34_eq m' c).trans ((Cert.ReferenceIdeal.RefValue.ref_h _ _ _ _ _ _ _ _ _ _ _).trans ?_))
    rw [a0, a1, a2, a3, a4, a5, a6, a7, a8, a9, a10]
  · obtain ⟨a0, a1, a2, a3, a4, a5, a6, a7, a8, a9, a10⟩ := hagree c
    refine (h c).2.1.trans ((Cert.ReferenceIdeal.Read.val_main_v32_eq _ _ _ _ _ _ _ _ _ _ _).trans ((Cert.ReferenceIdeal.RefValue.ref_c _ _ _ _ _ _ _ _ _ _ _).trans ?_))
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
